-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x237 : S_.BroadcastsInDim S16x237 (![] : Fin 0 → Fin S16x237.rank)
  reducesTo_S16x237_S_d0_1 : S16x237.ReducesTo [0, 1] S_
  bcast_S_S237 : S_.BroadcastsInDim S237 (![] : Fin 0 → Fin S237.rank)
  reducesTo_S237_S_d0 : S237.ReducesTo [0] S_

variable [Facts]

def fn_part3 {F : FTy → Type} [FloatOps F] (main_arg12 : FVec F S237 .f32) (main_v48 : IVec S_ 1) (main_v49 : FVec F S16x237 .f32) (main_v50 : FVec F S16x237 .f32) : IVec S_ 1 :=
  let main_v51 : IVec S16x237 1 := cmpf .olt main_v49 main_v50
  let main_c_19 : IVec S_ 1 := constantI S_ 1 1#1
  let main_v52 : IVec S_ 1 := (fun x v => Host.reduce IntOp.andi x v reducesTo_S16x237_S_d0_1 h_S_) main_v51 main_c_19
  let main_v53 : IVec S_ 1 := andi main_v48 main_v52
  let main_v54 : FVec F S237 .f32 := Host.absf main_arg12
  let main_cst_20 : FVec F S_ .f32 := constant S_ .f32 0x7F800000#32
  let main_v55 : FVec F S237 .f32 := broadcastInDim S237 ![] bcast_S_S237 main_cst_20
  let main_v56 : IVec S237 1 := cmpf .olt main_v54 main_v55
  let main_c_21 : IVec S_ 1 := constantI S_ 1 1#1
  let main_v57 : IVec S_ 1 := (fun x v => Host.reduce IntOp.andi x v reducesTo_S237_S_d0 h_S_) main_v56 main_c_21
  let main_v58 : IVec S_ 1 := andi main_v53 main_v57
  main_v58

def fn_part2 {F : FTy → Type} [FloatOps F] (main_arg8 : FVec F S16x16 .f32) (main_arg9 : FVec F S16 .f32) (main_arg10 : FVec F S16x16 .f32) (main_arg11 : FVec F S16x237 .f32) (main_arg12 : FVec F S237 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16x237 .f32 := Host.absf main_arg11
  let main_cst_18 : FVec F S_ .f32 := constant S_ .f32 0x7F800000#32
  let main_v50 : FVec F S16x237 .f32 := broadcastInDim S16x237 ![] bcast_S_S16x237 main_cst_18
  fn_part3 (F := F) main_arg12 main_v48 main_v49 main_v50

def fn_part1 {F : FTy → Type} [FloatOps F] (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x237 .f32) (main_arg12 : FVec F S237 .f32) (main_v13 : IVec S_ 1) (main_v16 : IVec S16384x16 1) : IVec S_ 1 :=
  let main_c_5 : IVec S_ 1 := constantI S_ 1 1#1
  let main_v17 : IVec S_ 1 := (fun x v => Host.reduce IntOp.andi x v reducesTo_S16384x16_S_d0_1 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S16384x16384 .f32) (main_arg1 : IVec S2x524288 32) (main_arg2 : FVec F S16384x16 .f32) (main_arg3 : FVec F S16 .f32) (main_arg4 : FVec F S16384x16 .f32) (main_arg5 : FVec F S16x16 .f32) (main_arg6 : FVec F S16 .f32) (main_arg7 : FVec F S16x16 .f32) (main_arg8 : FVec F S16x16 .f32) (main_arg9 : FVec F S16 .f32) (main_arg10 : FVec F S16x16 .f32) (main_arg11 : FVec F S16x237 .f32) (main_arg12 : FVec F S237 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x16 .f32 := Host.absf main_arg2
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16384x16 .f32 := Host.absf main_arg4
  let main_cst_4 : FVec F S_ .f32 := constant S_ .f32 0x7F800000#32
  let main_v15 : FVec F S16384x16 .f32 := broadcastInDim S16384x16 ![] bcast_S_S16384x16 main_cst_4
  let main_v16 : IVec S16384x16 1 := cmpf .olt main_v14 main_v15
  fn_part1 (F := F) main_arg5 main_arg6 main_arg7 main_arg8 main_arg9 main_arg10 main_arg11 main_arg12 main_v13 main_v16
-- ==== Kernel.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x32 : Shape := ⟨2, ![16384, 32]⟩
abbrev S1024x2048 : Shape := ⟨2, ![1024, 2048]⟩
abbrev S1024x32 : Shape := ⟨2, ![1024, 32]⟩
abbrev S2048x32 : Shape := ⟨2, ![2048, 32]⟩
abbrev S524288x16 : Shape := ⟨2, ![524288, 16]⟩
abbrev S1x16 : Shape := ⟨2, ![1, 16]⟩
abbrev S16384x237 : Shape := ⟨2, ![16384, 237]⟩
abbrev S1x237 : Shape := ⟨2, ![1, 237]⟩

abbrev nBuf : Space → Nat
  | .hbm => 102
  | .vmem => 6
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x16, .f32⟩
  | .hbm, ⟨3, _⟩ => ⟨S16, .f32⟩
  | .hbm, ⟨4, _⟩ => ⟨S16384x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x237, .f32⟩
  | .hbm, ⟨12, _⟩ => ⟨S237, .f32⟩
  | .hbm, ⟨13, _⟩ => ⟨S1x524288, .i32⟩
  | .hbm, ⟨14, _⟩ => ⟨S524288, .i32⟩
  | .hbm, ⟨15, _⟩ => ⟨S1x524288, .i32⟩
  | .hbm, ⟨16, _⟩ => ⟨S524288, .i32⟩
  | .hbm, ⟨17, _⟩ => ⟨S_, .f32⟩
  | .hbm, ⟨18, _⟩ => ⟨S524288, .f32⟩
  | .hbm, ⟨19, _⟩ => ⟨S_, .f32⟩
  | .hbm, ⟨20, _⟩ => ⟨S16384, .f32⟩
  | .hbm, ⟨21, _⟩ => ⟨S524288x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x32, .f32⟩
  | .hbm, ⟨28, _⟩ => ⟨S16384x32, .f32⟩
  | .hbm, ⟨29, _⟩ => ⟨S16384x16, .f32⟩
  | .hbm, ⟨30, _⟩ => ⟨S16384x16, .f32⟩
  | .hbm, ⟨31, _⟩ => ⟨S_, .i32⟩
  | .hbm, ⟨32, _⟩ => ⟨S524288, .i32⟩
  | .hbm, ⟨33, _⟩ => ⟨S524288, .i1⟩
  | .hbm, ⟨34, _⟩ => ⟨S_, .i32⟩
  | .hbm, ⟨35, _⟩ => ⟨S524288, .i32⟩
  | .hbm, ⟨36, _⟩ => ⟨S524288, .i32⟩
  | .hbm, ⟨37, _⟩ => ⟨S524288, .i32⟩
  | .hbm, ⟨38, _⟩ => ⟨S524288x1, .i32⟩
  | .hbm, ⟨39, _⟩ => ⟨S524288x16, .f32⟩
  | .hbm, ⟨40, _⟩ => ⟨S_, .f32⟩
  | .hbm, ⟨41, _⟩ => ⟨S16384x16, .f32⟩
  | .hbm, ⟨42, _⟩ => ⟨S524288x1, .i32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S1x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S524288x1, .i32⟩
  | .hbm, ⟨62, _⟩ => ⟨S524288x16, .f32⟩
  | .hbm, ⟨63, _⟩ => ⟨S_, .f32⟩
  | .hbm, ⟨64, _⟩ => ⟨S16384x16, .f32⟩
  | .hbm, ⟨65, _⟩ => ⟨S524288x1, .i32⟩
  | .hbm, ⟨66, _⟩ => ⟨S16384x16, .f32⟩
  | .hbm, ⟨67, _⟩ => ⟨S16384x16, .f32⟩
  | .hbm, ⟨68, _⟩ => ⟨S16384x16, .f32⟩
  | .hbm, ⟨69, _⟩ => ⟨S1x16, .f32⟩
  | .hbm, ⟨70, _⟩ => ⟨S16384x16, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S_, .f32⟩
  | .hbm, ⟨75, _⟩ => ⟨S16384x16, .f32⟩
  | .hbm, ⟨76, _⟩ => ⟨S16384x16, .f32⟩
  | .hbm, ⟨77, _⟩ => ⟨S16384x16, .f32⟩
  | .hbm, ⟨78, _⟩ => ⟨S_, .i32⟩
  | .hbm, ⟨79, _⟩ => ⟨S524288, .i32⟩
  | .hbm, ⟨80, _⟩ => ⟨S524288, .i1⟩
  | .hbm, ⟨81, _⟩ => ⟨S_, .i32⟩
  | .hbm, ⟨82, _⟩ => ⟨S524288, .i32⟩
  | .hbm, ⟨83, _⟩ => ⟨S524288, .i32⟩
  | .hbm, ⟨84, _⟩ => ⟨S524288, .i32⟩
  | .hbm, ⟨85, _⟩ => ⟨S524288x1, .i32⟩
  | .hbm, ⟨86, _⟩ => ⟨S524288x16, .f32⟩
  | .hbm, ⟨87, _⟩ => ⟨S_, .f32⟩
  | .hbm, ⟨88, _⟩ => ⟨S16384x16, .f32⟩
  | .hbm, ⟨89, _⟩ => ⟨S524288x1, .i32⟩
  | .hbm, ⟨90, _⟩ => ⟨S16384x16, .f32⟩
  | .hbm, ⟨91, _⟩ => ⟨S16384x16, .f32⟩
  | .hbm, ⟨92, _⟩ => ⟨S16384x16, .f32⟩
  | .hbm, ⟨93, _⟩ => ⟨S1x16, .f32⟩
  | .hbm, ⟨94, _⟩ => ⟨S16384x16, .f32⟩
  | .hbm, ⟨95, _⟩ => ⟨S16384x16, .f32⟩
  | .hbm, ⟨96, _⟩ => ⟨S16384x16, .f32⟩
  | .hbm, ⟨97, _⟩ => ⟨S16384x16, .f32⟩
  | .hbm, ⟨98, _⟩ => ⟨S16384x237, .f32⟩
  | .hbm, ⟨99, _⟩ => ⟨S1x237, .f32⟩
  | .hbm, ⟨100, _⟩ => ⟨S16384x237, .f32⟩
  | .hbm, ⟨101, _⟩ => ⟨S16384x237, .f32⟩
  | .local _ .vmem, ⟨0, _⟩ => ⟨S1024x2048, .f32⟩
  | .local _ .vmem, ⟨1, _⟩ => ⟨S1024x2048, .f32⟩
  | .local _ .vmem, ⟨2, _⟩ => ⟨S16384x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_7 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  concatenates_S16384x16_S16384x16_S16384x32_d1 : Shape.Concatenates [S16384x16, S16384x16] S16384x32 1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x32 : 0 < S2048x32.numel
  shapeCasts_S2048x32_S2048x32 : S2048x32.ShapeCasts S2048x32
  slices_S16384x32_S16384x16_0_0 : S16384x32.Slices ![0, 0] S16384x16
  slices_S16384x32_S16384x16_0_16 : S16384x32.Slices ![0, 16] S16384x16
  bcast_S_S16384x16 : S_.BroadcastsInDim S16384x16 (![] : Fin 0 → Fin S16384x16.rank)
  bcast_S16384x1_S16384x16_0_1 : S16384x1.BroadcastsInDim S16384x16 (![0, 1] : Fin 2 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S237_S1x237_1 : S237.BroadcastsInDim S1x237 (![1] : Fin 1 → Fin S1x237.rank)
  bcast_S1x237_S16384x237_0_1 : S1x237.BroadcastsInDim S16384x237 (![0, 1] : Fin 2 → Fin S16384x237.rank)
  scatter_S16384_S524288x1_S524288_n_0_0_1_wf : ScatterDims.WF S16384 S524288x1 S524288 [] [0] [0] 1
  dot_S1024x2048_S2048x32_S1024x32_1_0_0_1_n_n_wf : DotDims.WF S1024x2048 S2048x32 S1024x32 [1] [0] [0] [1] [] []
  gather_S16384x16_S524288x1_S524288x16_1_0_n_n_0_1_116_wf : GatherDims.WF S16384x16 S524288x1 S524288x16 [1] [0] [] [0] [] 1 ![1, 16]
  scatter_S16384x16_S524288x1_S524288x16_1_0_0_1_wf : ScatterDims.WF S16384x16 S524288x1 S524288x16 [1] [0] [0] 1
  dot_S16384x16_S16x16_S16384x16_1_0_0_1_n_n_wf : DotDims.WF S16384x16 S16x16 S16384x16 [1] [0] [0] [1] [] []
  dot_S16384x16_S16x237_S16384x237_1_0_0_1_n_n_wf : DotDims.WF S16384x16 S16x237 S16384x237 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x32.size a ≤ S16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S16384x32.size a
  hwx0_1 : ∀ i : grid0.Coords, EltTy.bits .f32 = 32 ∨ (Rect.block (s := S16384x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def gather_S16384x16_S524288x1_S524288x16_1_0_n_n_0_1_116 : GatherDims S16384x16 S524288x1 S524288x16 where
  offsetDims := [1]
  collapsedSliceDims := [0]
  operandBatchingDims := []
  startIndicesBatchingDims := []
  startIndexMap := [0]
  indexVectorDim := 1
  sliceSizes := ![1, 16]
  wf := gather_S16384x16_S524288x1_S524288x16_1_0_n_n_0_1_116_wf
def scatter_S16384x16_S524288x1_S524288x16_1_0_0_1 : ScatterDims S16384x16 S524288x1 S524288x16 where
  updateWindowDims := [1]
  insertedWindowDims := [0]
  scatterDimsToOperandDims := [0]
  indexVectorDim := 1
  wf := scatter_S16384x16_S524288x1_S524288x16_1_0_0_1_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x237_S16384x237_1_0_0_1_n_n : DotDims S16384x16 S16x237 S16384x237 where
  lhsContracting := [1]
  rhsContracting := [0]
  lhsNonContracting := [0]
  rhsNonContracting := [1]
  lhsBatch := []
  rhsBatch := []
  wf := dot_S16384x16_S16x237_S16384x237_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S16384x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S2x524288 : Shape := ⟨2, ![2, 524288]⟩
abbrev S16384x16 : Shape := ⟨2, ![16384, 16]⟩
abbrev S16 : Shape := ⟨1, ![16]⟩
abbrev S16x16 : Shape := ⟨2, ![16, 16]⟩
abbrev S16x237 : Shape := ⟨2, ![16, 237]⟩
abbrev S237 : Shape := ⟨1, ![237]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x16 : Shape := ⟨2, ![524288, 16]⟩
abbrev S16384 : Shape := ⟨1, ![16384]⟩
abbrev S16384x1 : Shape := ⟨2, ![16384, 1]⟩
abbrev S1x16 : Shape := ⟨2, ![1, 16]⟩
abbrev S16384x237 : Shape := ⟨2, ![16384, 237]⟩
abbrev S1x237 : Shape := ⟨2, ![1, 237]⟩

abbrev nBuf : Space → Nat
  | .hbm => 120
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S2x524288, .i32⟩
  | .hbm, ⟨2, _⟩ => ⟨S16384x16, .f32⟩
  | .hbm, ⟨3, _⟩ => ⟨S16, .f32⟩
  | .hbm, ⟨4, _⟩ => ⟨S16384x16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16x237, .f32⟩
  | .hbm, ⟨12, _⟩ => ⟨S237, .f32⟩
  | .hbm, ⟨13, _⟩ => ⟨S1x524288, .i32⟩
  | .hbm, ⟨14, _⟩ => ⟨S524288, .i32⟩
  | .hbm, ⟨15, _⟩ => ⟨S1x524288, .i32⟩
  | .hbm, ⟨16, _⟩ => ⟨S524288, .i32⟩
  | .hbm, ⟨17, _⟩ => ⟨S16384x16, .f32⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S524288, .i32⟩
  | .hbm, ⟨23, _⟩ => ⟨S524288, .i32⟩
  | .hbm, ⟨24, _⟩ => ⟨S524288, .i32⟩
  | .hbm, ⟨25, _⟩ => ⟨S524288x1, .i32⟩
  | .hbm, ⟨26, _⟩ => ⟨S524288x16, .f32⟩
  | .hbm, ⟨27, _⟩ => ⟨S_, .f32⟩
  | .hbm, ⟨28, _⟩ => ⟨S16384x16, .f32⟩
  | .hbm, ⟨29, _⟩ => ⟨S524288x1, .i32⟩
  | .hbm, ⟨30, _⟩ => ⟨S16384x16, .f32⟩
  | .hbm, ⟨31, _⟩ => ⟨S_, .f32⟩
  | .hbm, ⟨32, _⟩ => ⟨S524288, .f32⟩
  | .hbm, ⟨33, _⟩ => ⟨S_, .f32⟩
  | .hbm, ⟨34, _⟩ => ⟨S16384, .f32⟩
  | .hbm, ⟨35, _⟩ => ⟨S524288x1, .i32⟩
  | .hbm, ⟨36, _⟩ => ⟨S16384, .f32⟩
  | .hbm, ⟨37, _⟩ => ⟨S_, .f32⟩
  | .hbm, ⟨38, _⟩ => ⟨S16384, .f32⟩
  | .hbm, ⟨39, _⟩ => ⟨S16384, .f32⟩
  | .hbm, ⟨40, _⟩ => ⟨S16384x1, .f32⟩
  | .hbm, ⟨41, _⟩ => ⟨S16384x16, .f32⟩
  | .hbm, ⟨42, _⟩ => ⟨S16384x16, .f32⟩
  | .hbm, ⟨43, _⟩ => ⟨S1x16, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S_, .f32⟩
  | .hbm, ⟨49, _⟩ => ⟨S16384x16, .f32⟩
  | .hbm, ⟨50, _⟩ => ⟨S16384x16, .f32⟩
  | .hbm, ⟨51, _⟩ => ⟨S16384x16, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x16, .f32⟩
  | .hbm, ⟨61, _⟩ => ⟨S_, .f32⟩
  | .hbm, ⟨62, _⟩ => ⟨S16384x16, .f32⟩
  | .hbm, ⟨63, _⟩ => ⟨S524288x1, .i32⟩
  | .hbm, ⟨64, _⟩ => ⟨S16384x16, .f32⟩
  | .hbm, ⟨65, _⟩ => ⟨S_, .f32⟩
  | .hbm, ⟨66, _⟩ => ⟨S524288, .f32⟩
  | .hbm, ⟨67, _⟩ => ⟨S_, .f32⟩
  | .hbm, ⟨68, _⟩ => ⟨S16384, .f32⟩
  | .hbm, ⟨69, _⟩ => ⟨S524288x1, .i32⟩
  | .hbm, ⟨70, _⟩ => ⟨S16384, .f32⟩
  | .hbm, ⟨71, _⟩ => ⟨S_, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384x16, .f32⟩
  | .hbm, ⟨76, _⟩ => ⟨S16384x16, .f32⟩
  | .hbm, ⟨77, _⟩ => ⟨S1x16, .f32⟩
  | .hbm, ⟨78, _⟩ => ⟨S16384x16, .f32⟩
  | .hbm, ⟨79, _⟩ => ⟨S16384x16, .f32⟩
  | .hbm, ⟨80, _⟩ => ⟨S16384x16, .f32⟩
  | .hbm, ⟨81, _⟩ => ⟨S16384x16, .f32⟩
  | .hbm, ⟨82, _⟩ => ⟨S_, .f32⟩
  | .hbm, ⟨83, _⟩ => ⟨S16384x16, .f32⟩
  | .hbm, ⟨84, _⟩ => ⟨S16384x16, .f32⟩
  | .hbm, ⟨85, _⟩ => ⟨S16384x16, .f32⟩
  | .hbm, ⟨86, _⟩ => ⟨S_, .i32⟩
  | .hbm, ⟨87, _⟩ => ⟨S524288, .i32⟩
  | .hbm, ⟨88, _⟩ => ⟨S524288, .i1⟩
  | .hbm, ⟨89, _⟩ => ⟨S_, .i32⟩
  | .hbm, ⟨90, _⟩ => ⟨S524288, .i32⟩
  | .hbm, ⟨91, _⟩ => ⟨S524288, .i32⟩
  | .hbm, ⟨92, _⟩ => ⟨S524288, .i32⟩
  | .hbm, ⟨93, _⟩ => ⟨S524288x1, .i32⟩
  | .hbm, ⟨94, _⟩ => ⟨S524288x16, .f32⟩
  | .hbm, ⟨95, _⟩ => ⟨S_, .f32⟩
  | .hbm, ⟨96, _⟩ => ⟨S16384x16, .f32⟩
  | .hbm, ⟨97, _⟩ => ⟨S524288x1, .i32⟩
  | .hbm, ⟨98, _⟩ => ⟨S16384x16, .f32⟩
  | .hbm, ⟨99, _⟩ => ⟨S_, .f32⟩
  | .hbm, ⟨100, _⟩ => ⟨S524288, .f32⟩
  | .hbm, ⟨101, _⟩ => ⟨S_, .f32⟩
  | .hbm, ⟨102, _⟩ => ⟨S16384, .f32⟩
  | .hbm, ⟨103, _⟩ => ⟨S524288x1, .i32⟩
  | .hbm, ⟨104, _⟩ => ⟨S16384, .f32⟩
  | .hbm, ⟨105, _⟩ => ⟨S_, .f32⟩
  | .hbm, ⟨106, _⟩ => ⟨S16384, .f32⟩
  | .hbm, ⟨107, _⟩ => ⟨S16384, .f32⟩
  | .hbm, ⟨108, _⟩ => ⟨S16384x1, .f32⟩
  | .hbm, ⟨109, _⟩ => ⟨S16384x16, .f32⟩
  | .hbm, ⟨110, _⟩ => ⟨S16384x16, .f32⟩
  | .hbm, ⟨111, _⟩ => ⟨S1x16, .f32⟩
  | .hbm, ⟨112, _⟩ => ⟨S16384x16, .f32⟩
  | .hbm, ⟨113, _⟩ => ⟨S16384x16, .f32⟩
  | .hbm, ⟨114, _⟩ => ⟨S16384x16, .f32⟩
  | .hbm, ⟨115, _⟩ => ⟨S16384x16, .f32⟩
  | .hbm, ⟨116, _⟩ => ⟨S16384x237, .f32⟩
  | .hbm, ⟨117, _⟩ => ⟨S1x237, .f32⟩
  | .hbm, ⟨118, _⟩ => ⟨S16384x237, .f32⟩
  | .hbm, ⟨119, _⟩ => ⟨S16384x237, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x16 : S_.BroadcastsInDim S16384x16 (![] : Fin 0 → Fin S16384x16.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S237_S1x237_1 : S237.BroadcastsInDim S1x237 (![1] : Fin 1 → Fin S1x237.rank)
  bcast_S1x237_S16384x237_0_1 : S1x237.BroadcastsInDim S16384x237 (![0, 1] : Fin 2 → Fin S16384x237.rank)
  dot_S16384x16384_S16384x16_S16384x16_1_0_0_1_n_n_wf : DotDims.WF S16384x16384 S16384x16 S16384x16 [1] [0] [0] [1] [] []
  gather_S16384x16_S524288x1_S524288x16_1_0_n_n_0_1_116_wf : GatherDims.WF S16384x16 S524288x1 S524288x16 [1] [0] [] [0] [] 1 ![1, 16]
  scatter_S16384x16_S524288x1_S524288x16_1_0_0_1_wf : ScatterDims.WF S16384x16 S524288x1 S524288x16 [1] [0] [0] 1
  scatter_S16384_S524288x1_S524288_n_0_0_1_wf : ScatterDims.WF S16384 S524288x1 S524288 [] [0] [0] 1
  dot_S16384x16_S16x16_S16384x16_1_0_0_1_n_n_wf : DotDims.WF S16384x16 S16x16 S16384x16 [1] [0] [0] [1] [] []
  dot_S16384x16_S16x237_S16384x237_1_0_0_1_n_n_wf : DotDims.WF S16384x16 S16x237 S16384x237 [1] [0] [0] [1] [] []

variable [Facts₀]

def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf
def gather_S16384x16_S524288x1_S524288x16_1_0_n_n_0_1_116 : GatherDims S16384x16 S524288x1 S524288x16 where
  offsetDims := [1]
  collapsedSliceDims := [0]
  operandBatchingDims := []
  startIndicesBatchingDims := []
  startIndexMap := [0]
  indexVectorDim := 1
  sliceSizes := ![1, 16]
  wf := gather_S16384x16_S524288x1_S524288x16_1_0_n_n_0_1_116_wf
def scatter_S16384x16_S524288x1_S524288x16_1_0_0_1 : ScatterDims S16384x16 S524288x1 S524288x16 where
  updateWindowDims := [1]
  insertedWindowDims := [0]
  scatterDimsToOperandDims := [0]
  indexVectorDim := 1
  wf := scatter_S16384x16_S524288x1_S524288x16_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x237_S16384x237_1_0_0_1_n_n : DotDims S16384x16 S16x237 S16384x237 where
  lhsContracting := [1]
  rhsContracting := [0]
  lhsNonContracting := [0]
  rhsNonContracting := [1]
  lhsBatch := []
  rhsBatch := []
  wf := dot_S16384x16_S16x237_S16384x237_1_0_0_1_n_n_wf

class Facts : Prop extends Facts₀ where

variable [Facts]
-- ==== Proof.K.Kit.lean ====
/-
  The launch side of the frame of `Kernel`: the program is fifteen host operations (the edge list's two rows, the
  node degrees max(deg, 1) as a column, and the two first-layer weight matrices joined side by side into a
  [16384, 32] matrix), ONE region (the K-blocked product of the [16384, 16384] feature matrix with that joined
  matrix, on a 16 x 8 grid), and seventy-three host operations after it in five stretches (the three
  mean-aggregation layers and the output projection).  Here: the buffer contents when the region is entered
  (`V`), that @main is those stretches around the region, that the later stretches touch only unscoped buffers,
  allocate nothing and write none of the region's three arrays, that no host operation before or after the
  region writes an argument array, each window's block at a grid point, and the frame claim's post read off
  a run of the region with the later stretches.
-/
import proofs.«151274_j27419071218491_2_alg».proof.Proof.Gen.Kernel.Launch
import proofs.«151274_j27419071218491_2_alg».proof.Proof.Gen.Kernel.Skeleton
import proofs.«151274_j27419071218491_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- Core `c`'s buffer contents when the region is entered: the launch memory after the fifteen operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the region, the region, and the five later stretches: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a stretch writes its own result buffer only, and that is none of the region's three arrays
    (the feature matrix, the joined weight matrix, the product). -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The argument arrays are written by no host operation -/

/-- A buffer no operation before the region writes is found by the region as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- No operation before the region writes an argument array (each writes a buffer numbered 13 or more). -/
theorem pre_unwritten (b : Ref sig .tc) (hb : b ∈ ([main_arg0, main_arg1, main_arg2, main_arg3, main_arg4, main_arg5, main_arg6, main_arg7, main_arg8, main_arg9, main_arg10, main_arg11, main_arg12] : List (Ref sig .tc))) :
    (hostOps0 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- Nor does any operation after it, stretch by stretch. -/
theorem unw1 (b : Ref sig .tc) (hb : b ∈ ([main_arg0, main_arg1, main_arg2, main_arg3, main_arg4, main_arg5, main_arg6, main_arg7, main_arg8, main_arg9, main_arg10, main_arg11, main_arg12] : List (Ref sig .tc))) :
    (hostOps1 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_1 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_1 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_2 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_2 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_3 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_3 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_4 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_4 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem post_unwritten (b : Ref sig .tc) (hb : b ∈ ([main_arg0, main_arg1, main_arg2, main_arg3, main_arg4, main_arg5, main_arg6, main_arg7, main_arg8, main_arg9, main_arg10, main_arg11, main_arg12] : List (Ref sig .tc))) :
    ∀ op ∈ (tailOps (F := F)).flatten, Proc.devRef .tc b ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp (unw1 b hb)) op hop
  · exact (List.forall_iff_forall_mem.mp (unw1_1 b hb)) op hop
  · exact (List.forall_iff_forall_mem.mp (unw1_2 b hb)) op hop
  · exact (List.forall_iff_forall_mem.mp (unw1_3 b hb)) op hop
  · exact (List.forall_iff_forall_mem.mp (unw1_4 b hb)) op hop

/-- An argument array that is none of the region's arrays ends, after the later stretches, as launched. -/
theorem W_of_arg (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5, main_arg6, main_arg7, main_arg8, main_arg9, main_arg10, main_arg11, main_arg12] : List (Ref sig .tc)))
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (post_unwritten b hb),
    Pipeline.withArrays_of_ne _ c (V0 m c) _ b hne]
  exact V_of_unwritten m c b (pre_unwritten b hb)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature matrix's staging buffer holds its [1024, 2048] block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The joined weight matrix's staging buffer holds the whole matrix at every point: fetched at the first point,
    and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region with the later stretches -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun _ h c => ?_) h
  have rest : ∀ b ∈ ([main_arg1, main_arg2, main_arg3, main_arg4, main_arg5, main_arg6, main_arg7, main_arg8, main_arg9, main_arg10, main_arg11, main_arg12] : List (Ref sig .tc)),
      _ = m ((c.tc : Thread nD τ).loc b) := fun b hb =>
    ((h c).2 b (Pipeline.mem_restRefs_of b (by
        simp only [List.mem_cons, List.mem_nil_iff, or_false] at hb
        rcases hb with rfl | rfl | rfl | rfl | rfl | rfl | rfl | rfl | rfl | rfl | rfl | rfl <;> decide) (by
        simp only [List.mem_cons, List.mem_nil_iff, or_false] at hb
        rcases hb with rfl | rfl | rfl | rfl | rfl | rfl | rfl | rfl | rfl | rfl | rfl | rfl <;> decide))).trans
      (W_of_arg m dats c b (List.mem_cons_of_mem _ hb) (by
        simp only [List.mem_cons, List.mem_nil_iff, or_false] at hb
        rcases hb with rfl | rfl | rfl | rfl | rfl | rfl | rfl | rfl | rfl | rfl | rfl | rfl <;> decide))
  refine ⟨((h c).1 0).trans (((dats 0 c).arrAt_in 0 rfl _).trans ((hA c 0).trans (V_of_unwritten m c main_arg0 (pre_unwritten main_arg0 (by simp))))), ?_⟩
  exact ⟨rest _ (by simp), rest _ (by simp), rest _ (by simp), rest _ (by simp), rest _ (by simp), rest _ (by simp),
    rest _ (by simp), rest _ (by simp), rest _ (by simp), rest _ (by simp), rest _ (by simp), rest _ (by simp)⟩

end Cert.Kernel.Fr

end
-- ==== Proof.K.Body.lean ====
/-
  The body of the region of `Kernel` at one grid point (i, k) of the 16 x 8 grid, in its three cases.  The body
  keeps an accumulator of shape [1024, 32] in a scratch buffer across the eight points of a row block: at k = 0
  it first stores zeros there; at every point it adds to the accumulator the product of the point's [1024, 2048]
  block of the feature matrix with rows 2048 k … 2048 k + 2047 of the joined weight matrix; at k = 7 it copies
  the accumulator into the output block.  Each case is run once on arbitrary whole buffers, and what the
  accumulator and the output block end with is stated as a function of what the buffers held.
-/
import proofs.«151274_j27419071218491_2_alg».proof.Proof.K.Kit
import Idealize.ShloMosaic.Lib.Pipeline.Value

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions of the body, decided over the grid -/

/-- "k = 0" as the body computes it from the grid coordinates. -/
abbrev cond0_0 (i : grid0.Coords) : Prop := (Scalar.cmpi .ne (Scalar.extui (Scalar.cmpi .eq (BitVec.ofNat 32 (i 1).val) 0#32)) 0#32) = 1#1
/-- It holds at the points whose number is a multiple of 8 (the point number is 8 i + k). -/
theorem hcond0_0 : ∀ t : Fin cfg0.N, cond0_0 (grid0.coords t) ↔ t.val % 8 = 0 :=
  (by decide +kernel : ∀ t : Fin grid0.N, cond0_0 (grid0.coords t) ↔ t.val % 8 = 0)
/-- "k = 7" as the body computes it. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two inputs are never idle; the output block is idle (nothing stored, not written back) exactly where k ≠ 7. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the pipeline passes the body -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x32 .f32 := Memref.whole cc0_scratch0

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What one point computes -/

/-- Rows 2048 k … 2048 k + 2047 of the joined weight matrix, as the body loads them at grid point `i = (·, k)`. -/
def wrows (i : grid0.Coords) (x1 : Vec F S16384x32 .f32) : Vec F S2048x32 .f32 :=
  View.ld x1 (Rect.unit (s := S16384x32) (k0_off1 i) S2048x32.size (k0_off1_inb i))

/-- The accumulator after the point: the accumulator before it plus the block product. -/
def accStep (i : grid0.Coords) (x0 : Vec F S1024x2048 .f32) (x1 : Vec F S16384x32 .f32) (acc : Vec F S1024x32 .f32) : Vec F S1024x32 .f32 :=
  k0_pay2 x0 (wrows i x1) acc

theorem hz2 : (![0, 0] : Fin 2 → Nat) = fun _ => 0 := by
  funext a; fin_cases a <;> rfl

/-- One store through the whole-buffer rectangle leaves its payload, whatever the buffer held. -/
theorem read_one_store {S : Shape} {e : EltTy} {sp : Space} (v : View sig .tc sp S e) (f : v.ty.Contents (Elt F))
    {off : Fin S.rank → Nat} (h : off = fun _ => 0) (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨(⟨Rect.unit off S.size inb, p⟩ : View.Piece (Elt F) S e), List.mem_singleton_self _,
    View.mem_set_unit_zero h inb y⟩), View.canon_unit_zero h]

/-- Two such stores in a row leave the later one's payload (the list is last first). -/
theorem read_two_stores {S : Shape} {e : EltTy} {sp : Space} (v : View sig .tc sp S e) (f : v.ty.Contents (Elt F))
    {off : Fin S.rank → Nat} (h : off = fun _ => 0) (inb : ∀ a, off a + S.size a ≤ S.size a) (p q : S.Idx → Elt F e) :
    v.read (Elt F) (v.writes (Elt F) f [(⟨Rect.unit off S.size inb, p⟩ : View.Piece (Elt F) S e), ⟨Rect.unit off S.size inb, q⟩]) = p := by
  rw [View.read_writes_eq_canon _ _ _ (fun y => ⟨(⟨Rect.unit off S.size inb, p⟩ : View.Piece (Elt F) S e), List.mem_cons_self,
    View.mem_set_unit_zero h inb y⟩), View.canon_cons_unit_zero h]

/-! ## The three cases -/

set_option maxHeartbeats 1000000 in
/-- k = 0: the accumulator, at anything before, ends at zero plus the block product; the output block is untouched. -/
theorem run_first (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : cond0_0 i) (hc1 : ¬cond0_1 i)
    (x0 : Vec F S1024x2048 .f32) (x1 : Vec F S16384x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (accStep i x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [read_two_stores _ _ hz2]
  simp only [View.readAt_eq_ld, harg2.read_unread, harg3.read_unread, View.ld_unit_zero (S := S1024x2048) hz2,
    View.readCov_unit_zero (S := S1024x32) _ hz2]
  rfl

set_option maxHeartbeats 1000000 in
/-- 0 < k < 7: the accumulator ends at what it held plus the block product; the output block is untouched. -/
theorem run_middle (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : ¬cond0_0 i) (hc1 : ¬cond0_1 i)
    (x0 : Vec F S1024x2048 .f32) (x1 : Vec F S16384x32 .f32) (xi2 : Vec F S1024x32 .f32) (xs0 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (accStep i x0 x1 xs0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [read_one_store _ _ hz2]
  simp only [View.readAt_eq_ld, harg2.read_unread, harg3.read_unread, harg5.read_unread, View.ld_unit_zero (S := S1024x2048) hz2,
    View.ld_unit_zero (S := S1024x32) hz2]
  rfl

set_option maxHeartbeats 1000000 in
/-- k = 7: the accumulator ends at what it held plus the block product, and the output block, at anything before,
    ends at the same. -/
theorem run_last (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : ¬cond0_0 i) (hc1 : cond0_1 i)
    (x0 : Vec F S1024x2048 .f32) (x1 : Vec F S16384x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (accStep i x0 x1 xs0) ∗ owns (c : Thread nD τ) arg5 fullShare (accStep i x0 x1 xs0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_one_store _ _ hz2]
    simp only [View.readAt_eq_ld, harg2.read_unread, harg3.read_unread, harg5.read_unread, View.ld_unit_zero (S := S1024x2048) hz2,
      View.ld_unit_zero (S := S1024x32) hz2, View.readCov_unit_zero (S := S1024x32) _ hz2]
    rfl
  iexists _; isplitr
  swap; · iexact HS0
  ipureintro
  sl_unfold_run_names
  rw [read_one_store _ _ hz2]
  simp only [View.readAt_eq_ld, harg2.read_unread, harg3.read_unread, harg5.read_unread, View.ld_unit_zero (S := S1024x2048) hz2,
    View.ld_unit_zero (S := S1024x32) hz2]
  rfl

end Cert.Kernel.Fr

end
-- ==== Proof.K.Frame.lean ====
/-
  The frame of `Kernel`: the region run at every grid point with the accumulator carried from point to point,
  the host operations before and after it, every argument array unchanged at the end.  The accumulator after
  point n (`accAt`) is, at a point with k = 0, zero plus that point's block product, and otherwise what the
  point before left plus the block product; the output block written back at a point with k = 7 is the
  accumulator there.  The region's invariant holds the accumulator at `accAt` of the point before.
-/
import proofs.«151274_j27419071218491_2_alg».proof.Proof.K.Body

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator point by point -/

/-- The accumulator after the body at point `n` (the points are numbered 8 i + k). -/
def accAt (c : Dev nD) : (n : ℕ) → n < cfg0.N → Vec F S1024x32 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩)
      (if (n + 1) % 8 = 0 then k0_pay1 (F := F) else accAt c n (Nat.lt_of_succ_lt hn))

/-- At a point with k = 0 the accumulator restarts from zero. -/
theorem accAt_first (c : Dev nD) (t : Fin cfg0.N) (h0 : t.val % 8 = 0) :
    accAt m c t.val t.isLt = accStep (grid0.coords t) (iblk m c 0 t) (iblk m c 1 t) (k0_pay1 (F := F)) := by
  obtain ⟨n, hn⟩ := t
  cases n with
  | zero => rfl
  | succ n => simp only [accAt, if_pos h0]

/-- At any other point it continues from what the point before left. -/
theorem accAt_next (c : Dev nD) (t : Fin cfg0.N) (h0 : ¬t.val % 8 = 0) :
    accAt m c t.val t.isLt = accStep (grid0.coords t) (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n =>
    show accAt m c (n + 1) hn = accStep _ _ _ (accAt m c n _)
    simp only [accAt, if_neg h0]

/-! ## The region's invariant -/

/-- Before the first point: what the launch hands over (the accumulator at anything).  Before point n + 1: the
    accumulator at what point n left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body at point `t` each input's buffer at its block and the
    output's at the accumulator there; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; which case the point is in is decided by its
    number mod 8; the invariant hands over the accumulator at what the point before left (at anything before
    the first point) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 8 = 7
  · have h0 : ¬t.val % 8 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [accAt_next m c t h0, PhiS_castSucc m c t, PhiS_pos m c _ _ hz]
    iintro ⟨⟨HS0, Hg⟩, Ho, ⟨%d0, H0⟩, ⟨%d1, H1⟩, ⟨%d2, H2⟩⟩
    iapply (run_last c (grid0.coords t) _ _ _ _ _ _ _ _ (fun h => h0 ((hcond0_0 t).mp h)) ((hcond0_1 t).mpr h1) (iblk m c 0 t) (iblk m c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2
  · rw [Dat.leavesExact_idle (dats m 0 c) 2 t (idleAt0_2 t (fun h => h1 ((hcond0_1 t).mp h))) (noFlush0_2 t (fun h => h1 ((hcond0_1 t).mp h)))]
    by_cases h0 : t.val % 8 = 0
    · rw [accAt_first m c t h0]
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply (run_first c (grid0.coords t) _ _ _ _ _ _ _ _ ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexact HS0
        iintro ⟨H0, H1, H2, HS0⟩
        isplitl [HS0 Hg]
        · isplitl [HS0]; · iexact HS0
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply (run_first c (grid0.coords t) _ _ _ _ _ _ _ _ ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 Hg]
        · isplitl [HS0]; · iexact HS0
          iexact Hg
        isplitl [Ho]; · iexact Ho
        isplitl [H0]; · iexact H0
        isplitl [H1]; · iexact H1
        iexists _; iexact H2
    · have hz : t.val ≠ 0 := fun e => h0 (by rw [e])
      rw [accAt_next m c t h0, PhiS_castSucc m c t, PhiS_pos m c _ _ hz]
      iintro ⟨⟨HS0, Hg⟩, Ho, ⟨%d0, H0⟩, ⟨%d1, H1⟩, ⟨%d2, H2⟩⟩
      iapply (run_middle c (grid0.coords t) _ _ _ _ _ _ _ _ (fun h => h0 ((hcond0_0 t).mp h)) (fun h => h1 ((hcond0_1 t).mp h)) (iblk m c 0 t) (iblk m c 1 t) _ _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each of the region's arrays at what
    the proof data's write-backs leave and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Fr

end
-- ==== Proof.KI.Kit.lean ====
/-
  The launch side of the frame of `KernelIdeal`: the program is fifteen host operations (the edge list's two rows, the
  node degrees max(deg, 1) as a column, and the two first-layer weight matrices joined side by side into a
  [16384, 32] matrix), ONE region (the K-blocked product of the [16384, 16384] feature matrix with that joined
  matrix, on a 16 x 8 grid), and seventy-three host operations after it in five stretches (the three
  mean-aggregation layers and the output projection).  Here: the buffer contents when the region is entered
  (`V`), that @main is those stretches around the region, that the later stretches touch only unscoped buffers,
  allocate nothing and write none of the region's three arrays, that no host operation before or after the
  region writes an argument array, each window's block at a grid point, and the frame claim's post read off
  a run of the region with the later stretches.
-/
import proofs.«151274_j27419071218491_2_alg».proof.Proof.Gen.KernelIdeal.Launch
import proofs.«151274_j27419071218491_2_alg».proof.Proof.Gen.KernelIdeal.Skeleton
import proofs.«151274_j27419071218491_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- Core `c`'s buffer contents when the region is entered: the launch memory after the fifteen operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the region, the region, and the five later stretches: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later stretches touch the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each operation of a stretch writes its own result buffer only, and that is none of the region's three arrays
    (the feature matrix, the joined weight matrix, the product). -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The argument arrays are written by no host operation -/

/-- A buffer no operation before the region writes is found by the region as launched. -/
theorem V_of_unwritten (c : Dev nD) (b : Ref sig .tc)
    (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp (by
    simpa only [List.flatten_cons, List.flatten_nil, List.append_nil] using h))

/-- No operation before the region writes an argument array (each writes a buffer numbered 13 or more). -/
theorem pre_unwritten (b : Ref sig .tc) (hb : b ∈ ([main_arg0, main_arg1, main_arg2, main_arg3, main_arg4, main_arg5, main_arg6, main_arg7, main_arg8, main_arg9, main_arg10, main_arg11, main_arg12] : List (Ref sig .tc))) :
    (hostOps0 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- Nor does any operation after it, stretch by stretch. -/
theorem unw1 (b : Ref sig .tc) (hb : b ∈ ([main_arg0, main_arg1, main_arg2, main_arg3, main_arg4, main_arg5, main_arg6, main_arg7, main_arg8, main_arg9, main_arg10, main_arg11, main_arg12] : List (Ref sig .tc))) :
    (hostOps1 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_1 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_1 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_2 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_2 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_3 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_3 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
theorem unw1_4 (b : Ref sig .tc) (hb : b ∈ ([main_arg0, main_arg1, main_arg2, main_arg3, main_arg4, main_arg5, main_arg6, main_arg7, main_arg8, main_arg9, main_arg10, main_arg11, main_arg12] : List (Ref sig .tc))) :
    (hostOps1_4 : List (HloOp τ sig (Elt F))).Forall fun op => Proc.devRef .tc b ∉ op.writes := by
  simp only [List.mem_cons, List.mem_nil_iff, or_false] at hb
  rcases hb with rfl | rfl | rfl | rfl | rfl | rfl | rfl | rfl | rfl | rfl | rfl | rfl | rfl
  all_goals
    simp only [hostOps1_4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem post_unwritten (b : Ref sig .tc) (hb : b ∈ ([main_arg0, main_arg1, main_arg2, main_arg3, main_arg4, main_arg5, main_arg6, main_arg7, main_arg8, main_arg9, main_arg10, main_arg11, main_arg12] : List (Ref sig .tc))) :
    ∀ op ∈ (tailOps (F := F)).flatten, Proc.devRef .tc b ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp (unw1 b hb)) op hop
  · exact (List.forall_iff_forall_mem.mp (unw1_1 b hb)) op hop
  · exact (List.forall_iff_forall_mem.mp (unw1_2 b hb)) op hop
  · exact (List.forall_iff_forall_mem.mp (unw1_3 b hb)) op hop
  · exact (List.forall_iff_forall_mem.mp (unw1_4 b hb)) op hop

/-- An argument array that is none of the region's arrays ends, after the later stretches, as launched. -/
theorem W_of_arg (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5, main_arg6, main_arg7, main_arg8, main_arg9, main_arg10, main_arg11, main_arg12] : List (Ref sig .tc)))
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (post_unwritten b hb),
    Pipeline.withArrays_of_ne _ c (V0 m c) _ b hne]
  exact V_of_unwritten m c b (pre_unwritten b hb)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature matrix's staging buffer holds its [1024, 2048] block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The joined weight matrix's staging buffer holds the whole matrix at every point: fetched at the first point,
    and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region with the later stretches -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun _ h c => ?_) h
  have rest : ∀ b ∈ ([main_arg1, main_arg2, main_arg3, main_arg4, main_arg5, main_arg6, main_arg7, main_arg8, main_arg9, main_arg10, main_arg11, main_arg12] : List (Ref sig .tc)),
      _ = m ((c.tc : Thread nD τ).loc b) := fun b hb =>
    ((h c).2 b (Pipeline.mem_restRefs_of b (by
        simp only [List.mem_cons, List.mem_nil_iff, or_false] at hb
        rcases hb with rfl | rfl | rfl | rfl | rfl | rfl | rfl | rfl | rfl | rfl | rfl | rfl <;> decide) (by
        simp only [List.mem_cons, List.mem_nil_iff, or_false] at hb
        rcases hb with rfl | rfl | rfl | rfl | rfl | rfl | rfl | rfl | rfl | rfl | rfl | rfl <;> decide))).trans
      (W_of_arg m dats c b (List.mem_cons_of_mem _ hb) (by
        simp only [List.mem_cons, List.mem_nil_iff, or_false] at hb
        rcases hb with rfl | rfl | rfl | rfl | rfl | rfl | rfl | rfl | rfl | rfl | rfl | rfl <;> decide))
  refine ⟨((h c).1 0).trans (((dats 0 c).arrAt_in 0 rfl _).trans ((hA c 0).trans (V_of_unwritten m c main_arg0 (pre_unwritten main_arg0 (by simp))))), ?_⟩
  exact ⟨rest _ (by simp), rest _ (by simp), rest _ (by simp), rest _ (by simp), rest _ (by simp), rest _ (by simp),
    rest _ (by simp), rest _ (by simp), rest _ (by simp), rest _ (by simp), rest _ (by simp), rest _ (by simp)⟩

end Cert.KernelIdeal.Fr

end
-- ==== Proof.KI.Body.lean ====
/-
  The body of the region of `KernelIdeal` at one grid point (i, k) of the 16 x 8 grid, in its three cases.  The body
  keeps an accumulator of shape [1024, 32] in a scratch buffer across the eight points of a row block: at k = 0
  it first stores zeros there; at every point it adds to the accumulator the product of the point's [1024, 2048]
  block of the feature matrix with rows 2048 k … 2048 k + 2047 of the joined weight matrix; at k = 7 it copies
  the accumulator into the output block.  Each case is run once on arbitrary whole buffers, and what the
  accumulator and the output block end with is stated as a function of what the buffers held.
-/
import proofs.«151274_j27419071218491_2_alg».proof.Proof.KI.Kit
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions of the body, decided over the grid -/

/-- "k = 0" as the body computes it from the grid coordinates. -/
abbrev cond0_0 (i : grid0.Coords) : Prop := (Scalar.cmpi .ne (Scalar.extui (Scalar.cmpi .eq (BitVec.ofNat 32 (i 1).val) 0#32)) 0#32) = 1#1
/-- It holds at the points whose number is a multiple of 8 (the point number is 8 i + k). -/
theorem hcond0_0 : ∀ t : Fin cfg0.N, cond0_0 (grid0.coords t) ↔ t.val % 8 = 0 :=
  (by decide +kernel : ∀ t : Fin grid0.N, cond0_0 (grid0.coords t) ↔ t.val % 8 = 0)
/-- "k = 7" as the body computes it. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two inputs are never idle; the output block is idle (nothing stored, not written back) exactly where k ≠ 7. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the pipeline passes the body -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x32 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x32 .f32 := Memref.whole cc0_scratch0

/-- What the launch hands the region besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What one point computes -/

/-- Rows 2048 k … 2048 k + 2047 of the joined weight matrix, as the body loads them at grid point `i = (·, k)`. -/
def wrows (i : grid0.Coords) (x1 : Vec F S16384x32 .f32) : Vec F S2048x32 .f32 :=
  View.ld x1 (Rect.unit (s := S16384x32) (k0_off1 i) S2048x32.size (k0_off1_inb i))

/-- The accumulator after the point: the accumulator before it plus the block product. -/
def accStep (i : grid0.Coords) (x0 : Vec F S1024x2048 .f32) (x1 : Vec F S16384x32 .f32) (acc : Vec F S1024x32 .f32) : Vec F S1024x32 .f32 :=
  k0_pay2 x0 (wrows i x1) acc

theorem hz2 : (![0, 0] : Fin 2 → Nat) = fun _ => 0 := by
  funext a; fin_cases a <;> rfl

/-- One store through the whole-buffer rectangle leaves its payload, whatever the buffer held. -/
theorem read_one_store {S : Shape} {e : EltTy} {sp : Space} (v : View sig .tc sp S e) (f : v.ty.Contents (Elt F))
    {off : Fin S.rank → Nat} (h : off = fun _ => 0) (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨(⟨Rect.unit off S.size inb, p⟩ : View.Piece (Elt F) S e), List.mem_singleton_self _,
    View.mem_set_unit_zero h inb y⟩), View.canon_unit_zero h]

/-- Two such stores in a row leave the later one's payload (the list is last first). -/
theorem read_two_stores {S : Shape} {e : EltTy} {sp : Space} (v : View sig .tc sp S e) (f : v.ty.Contents (Elt F))
    {off : Fin S.rank → Nat} (h : off = fun _ => 0) (inb : ∀ a, off a + S.size a ≤ S.size a) (p q : S.Idx → Elt F e) :
    v.read (Elt F) (v.writes (Elt F) f [(⟨Rect.unit off S.size inb, p⟩ : View.Piece (Elt F) S e), ⟨Rect.unit off S.size inb, q⟩]) = p := by
  rw [View.read_writes_eq_canon _ _ _ (fun y => ⟨(⟨Rect.unit off S.size inb, p⟩ : View.Piece (Elt F) S e), List.mem_cons_self,
    View.mem_set_unit_zero h inb y⟩), View.canon_cons_unit_zero h]

/-! ## The three cases -/

set_option maxHeartbeats 1000000 in
/-- k = 0: the accumulator, at anything before, ends at zero plus the block product; the output block is untouched. -/
theorem run_first (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : cond0_0 i) (hc1 : ¬cond0_1 i)
    (x0 : Vec F S1024x2048 .f32) (x1 : Vec F S16384x32 .f32) (xi2 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (accStep i x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [read_two_stores _ _ hz2]
  simp only [View.readAt_eq_ld, harg2.read_unread, harg3.read_unread, View.ld_unit_zero (S := S1024x2048) hz2,
    View.readCov_unit_zero (S := S1024x32) _ hz2]
  rfl

set_option maxHeartbeats 1000000 in
/-- 0 < k < 7: the accumulator ends at what it held plus the block product; the output block is untouched. -/
theorem run_middle (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : ¬cond0_0 i) (hc1 : ¬cond0_1 i)
    (x0 : Vec F S1024x2048 .f32) (x1 : Vec F S16384x32 .f32) (xi2 : Vec F S1024x32 .f32) (xs0 : Vec F S1024x32 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (accStep i x0 x1 xs0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_run_names
  rw [read_one_store _ _ hz2]
  simp only [View.readAt_eq_ld, harg2.read_unread, harg3.read_unread, harg5.read_unread, View.ld_unit_zero (S := S1024x2048) hz2,
    View.ld_unit_zero (S := S1024x32) hz2]
  rfl

set_option maxHeartbeats 1000000 in
/-- k = 7: the accumulator ends at what it held plus the block product, and the output block, at anything before,
    ends at the same. -/
theorem run_last (c : Dev nD) (i : grid0.Coords) (arg2 : Memref sig .tc .vmem S1024x2048 .f32) (harg2 : arg2.IsWhole) (arg3 : Memref sig .tc .vmem S16384x32 .f32) (harg3 : arg3.IsWhole) (arg4 : Memref sig .tc .vmem S1024x32 .f32) (harg4 : arg4.IsWhole) (arg5 : Memref sig .tc .vmem S1024x32 .f32) (harg5 : arg5.IsWhole) (hc0 : ¬cond0_0 i) (hc1 : cond0_1 i)
    (x0 : Vec F S1024x2048 .f32) (x1 : Vec F S16384x32 .f32) (xs0 : Vec F S1024x32 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0
        ∗ (iprop(owns (c : Thread nD τ) arg2 fullShare x0 ∗ owns (c : Thread nD τ) arg3 fullShare x1 ∗ owns (c : Thread nD τ) arg4 fullShare (accStep i x0 x1 xs0) ∗ owns (c : Thread nD τ) arg5 fullShare (accStep i x0 x1 xs0)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_one_store _ _ hz2]
    simp only [View.readAt_eq_ld, harg2.read_unread, harg3.read_unread, harg5.read_unread, View.ld_unit_zero (S := S1024x2048) hz2,
      View.ld_unit_zero (S := S1024x32) hz2, View.readCov_unit_zero (S := S1024x32) _ hz2]
    rfl
  iexists _; isplitr
  swap; · iexact HS0
  ipureintro
  sl_unfold_run_names
  rw [read_one_store _ _ hz2]
  simp only [View.readAt_eq_ld, harg2.read_unread, harg3.read_unread, harg5.read_unread, View.ld_unit_zero (S := S1024x2048) hz2,
    View.ld_unit_zero (S := S1024x32) hz2]
  rfl

end Cert.KernelIdeal.Fr

end
-- ==== Proof.KI.Frame.lean ====
/-
  The frame of `KernelIdeal`: the region run at every grid point with the accumulator carried from point to point,
  the host operations before and after it, every argument array unchanged at the end.  The accumulator after
  point n (`accAt`) is, at a point with k = 0, zero plus that point's block product, and otherwise what the
  point before left plus the block product; the output block written back at a point with k = 7 is the
  accumulator there.  The region's invariant holds the accumulator at `accAt` of the point before.
-/
import proofs.«151274_j27419071218491_2_alg».proof.Proof.KI.Body

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator point by point -/

/-- The accumulator after the body at point `n` (the points are numbered 8 i + k). -/
def accAt (c : Dev nD) : (n : ℕ) → n < cfg0.N → Vec F S1024x32 .f32
  | 0, hn => accStep (grid0.coords ⟨0, hn⟩) (iblk m c 0 ⟨0, hn⟩) (iblk m c 1 ⟨0, hn⟩) (k0_pay1 (F := F))
  | n + 1, hn => accStep (grid0.coords ⟨n + 1, hn⟩) (iblk m c 0 ⟨n + 1, hn⟩) (iblk m c 1 ⟨n + 1, hn⟩)
      (if (n + 1) % 8 = 0 then k0_pay1 (F := F) else accAt c n (Nat.lt_of_succ_lt hn))

/-- At a point with k = 0 the accumulator restarts from zero. -/
theorem accAt_first (c : Dev nD) (t : Fin cfg0.N) (h0 : t.val % 8 = 0) :
    accAt m c t.val t.isLt = accStep (grid0.coords t) (iblk m c 0 t) (iblk m c 1 t) (k0_pay1 (F := F)) := by
  obtain ⟨n, hn⟩ := t
  cases n with
  | zero => rfl
  | succ n => simp only [accAt, if_pos h0]

/-- At any other point it continues from what the point before left. -/
theorem accAt_next (c : Dev nD) (t : Fin cfg0.N) (h0 : ¬t.val % 8 = 0) :
    accAt m c t.val t.isLt = accStep (grid0.coords t) (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n =>
    show accAt m c (n + 1) hn = accStep _ _ _ (accAt m c n _)
    simp only [accAt, if_neg h0]

/-! ## The region's invariant -/

/-- Before the first point: what the launch hands over (the accumulator at anything).  Before point n + 1: the
    accumulator at what point n left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega))) ∗ (∃ r, prngReg c r)) := by
  cases n with
  | zero => exact absurd rfl hz
  | succ n => rfl

/-! ## The proof data -/

/-- The arrays as the region finds them; after the body at point `t` each input's buffer at its block and the
    output's at the accumulator there; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = accAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; which case the point is in is decided by its
    number mod 8; the invariant hands over the accumulator at what the point before left (at anything before
    the first point) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val % 8 = 7
  · have h0 : ¬t.val % 8 = 0 := by omega
    have hz : t.val ≠ 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [accAt_next m c t h0, PhiS_castSucc m c t, PhiS_pos m c _ _ hz]
    iintro ⟨⟨HS0, Hg⟩, Ho, ⟨%d0, H0⟩, ⟨%d1, H1⟩, ⟨%d2, H2⟩⟩
    iapply (run_last c (grid0.coords t) _ _ _ _ _ _ _ _ (fun h => h0 ((hcond0_0 t).mp h)) ((hcond0_1 t).mpr h1) (iblk m c 0 t) (iblk m c 1 t) _ Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]; · iexact HS0
      iexact Hg
    isplitl [Ho]; · iexact Ho
    isplitl [H0]; · iexact H0
    isplitl [H1]; · iexact H1
    iexact H2
  · rw [Dat.leavesExact_idle (dats m 0 c) 2 t (idleAt0_2 t (fun h => h1 ((hcond0_1 t).mp h))) (noFlush0_2 t (fun h => h1 ((hcond0_1 t).mp h)))]
    by_cases h0 : t.val % 8 = 0
    · rw [accAt_first m c t h0]
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply (run_first c (grid0.coords t) _ _ _ _ _ _ _ _ ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexact HS0
        iintro ⟨H0, H1, H2, HS0⟩
        isplitl [HS0 Hg]
        · isplitl [HS0]; · iexact HS0
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply (run_first c (grid0.coords t) _ _ _ _ _ _ _ _ ((hcond0_0 t).mpr h0) (fun h => h1 ((hcond0_1 t).mp h)) (iblk m c 0 t) (iblk m c 1 t) _ Set.univ _)
        isplitl [H0]; · iexact H0
        isplitl [H1]; · iexact H1
        isplitl [H2]; · iexact H2
        isplitl [HS0]; · iexists _; iexact HS0
        iintro ⟨H0, H1, H2, HS0⟩
        isplitl [HS0 Hg]
        · isplitl [HS0]; · iexact HS0
          iexact Hg
        isplitl [Ho]; · iexact Ho
        isplitl [H0]; · iexact H0
        isplitl [H1]; · iexact H1
        iexists _; iexact H2
    · have hz : t.val ≠ 0 := fun e => h0 (by rw [e])
      rw [accAt_next m c t h0, PhiS_castSucc m c t, PhiS_pos m c _ _ hz]
      iintro ⟨⟨HS0, Hg⟩, Ho, ⟨%d0, H0⟩, ⟨%d1, H1⟩, ⟨%d2, H2⟩⟩
      iapply (run_middle c (grid0.coords t) _ _ _ _ _ _ _ _ (fun h => h0 ((hcond0_0 t).mp h)) (fun h => h1 ((hcond0_1 t).mp h)) (iblk m c 0 t) (iblk m c 1 t) _ _ Set.univ _)
      isplitl [H0]; · iexact H0
      isplitl [H1]; · iexact H1
      isplitl [H2]; · iexact H2
      isplitl [HS0]; · iexact HS0
      iintro ⟨H0, H1, H2, HS0⟩
      isplitl [HS0 Hg]
      · isplitl [HS0]; · iexact HS0
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has each of the region's arrays at what
    the proof data's write-backs leave and every other unscoped buffer as the later stretches leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Fr

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KI.Region1.lean ====
/-
  What the accumulator of `KernelIdeal`'s region holds, at the ideal values.  Write X for the [16384, 16384]
  feature matrix and W for the joined [16384, 32] weight matrix as the region finds them.  At the grid point
  numbered n = 8 i + k the body adds to the accumulator's entry (p, q) the partial product
      ∑ j < 2048,  X (1024 i + p, 2048 k + j) · W (2048 k + j, q)
  (a change of float format is the identity on the extended reals, and the matrix unit's product into the zero
  accumulator is the plain sum), starting from zero at k = 0.  So after point n the entry is the sum of the
  partial products of the blocks 0 … k of row block i.  Only commutativity and associativity of addition are used.
-/
import proofs.«151274_j27419071218491_2_alg».proof.Proof.KI.Frame
import proofs.«151274_j27419071218491_2_alg».proof.Proof.LibRowColDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## One point's arithmetic at an index -/

theorem mm_lhs0 (j : S1024x32.Idx) (q : dot_S1024x2048_S2048x32_S1024x32_1_0_0_1_n_n.contr.Idx) :
    (dot_S1024x2048_S2048x32_S1024x32_1_0_0_1_n_n.lhsIdx j q 0).val = (j 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
theorem mm_rhs1 (j : S1024x32.Idx) (q : dot_S1024x2048_S2048x32_S1024x32_1_0_0_1_n_n.contr.Idx) :
    (dot_S1024x2048_S2048x32_S1024x32_1_0_0_1_n_n.rhsIdx j q 1).val = (j 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The zero the accumulator restarts from. -/
theorem zero_apply (y : S1024x32.Idx) : (k0_pay1 (F := Ideal)) y = 0 := by
  unfold k0_pay1
  refine (congrFun (shapeCast_self _ _) y).trans ?_
  show Ideal.ofBits .f32 0x00000000#32 = 0
  exact Ideal.ofBits_zero_f32

/-- The accumulator after a point, entry (p, q): the entry before plus the block's partial product. -/
theorem accStep_apply (i : grid0.Coords) (x0 : Vec Ideal S1024x2048 .f32) (x1 : Vec Ideal S16384x32 .f32) (acc : Vec Ideal S1024x32 .f32)
    (p : Fin 1024) (q : Fin 32) :
    accStep (F := Ideal) i x0 x1 acc (ix2 p q) = acc (ix2 p q) + ∑ j : Fin 2048, x0 (ix2 p j) * wrows (F := Ideal) i x1 (ix2 j q) := by
  unfold accStep k0_pay2
  refine (congrFun (shapeCast_self _ _) (ix2 p q)).trans ?_
  refine congrArg (acc (ix2 p q) + ·) ?_
  refine (Cert.RowColDot.matmul_rowcol dot_S1024x2048_S2048x32_S1024x32_1_0_0_1_n_n rfl rfl rfl rfl mm_lhs0 mm_rhs1 none _ _ (ix2 p q)).trans ?_
  refine Finset.sum_congr rfl fun j _ => ?_
  show x0 (ix2 p j) * shapeCast S2048x32 (wrows (F := Ideal) i x1) shapeCasts_S2048x32_S2048x32 (ix2 j q) = x0 (ix2 p j) * wrows (F := Ideal) i x1 (ix2 j q)
  rw [shapeCast_self]

end Cert.KernelIdeal.Fr

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.Val.Sums.lean ====
/-
  A sum over the 16384 contracted positions of the first-layer product, cut into the 8 consecutive blocks of
  2048 positions in which the product is accumulated: the blocks' partial sums add up to the whole sum. Only
  commutativity and associativity of addition are used, so the statement holds on the extended reals.
-/
import proofs.«151274_j27419071218491_2_alg».proof.Proof.LibUnitAxisSums

noncomputable section

open scoped BigOperators

namespace Cert.Bridge

open Idealize.ShloMosaic

/-- The sum over 16384 positions is the sum, over the 8 blocks, of the sums over each block's 2048 positions. -/
theorem sum_blocks {M : Type*} [AddCommMonoid M] (f : Fin 16384 → M) :
    (∑ k : Fin 8, ∑ j : Fin 2048, f ⟨2048 * k.val + j.val, by have := k.isLt; have := j.isLt; omega⟩) = ∑ i : Fin 16384, f i :=
  (ValueIdx.sum_fin_blocks 8 2048 f).symm

end Cert.Bridge

end
-- ==== Proof.KI.Region2.lean ====
/-
  The array the region of `KernelIdeal` leaves, at the ideal values: the plain matrix product of the feature
  matrix X with the joined weight matrix W,
      out (r, q) = ∑ j < 16384,  X (r, j) · W (j, q).
  The accumulator after the point numbered n = 8 i + k, at entry (p, q), is the sum over the blocks k' ≤ k of
  the partial products ∑ j < 2048, X (1024 i + p, 2048 k' + j) · W (2048 k' + j, q) (induction on the point);
  the point with k = 7 writes the accumulator back as rows 1024 i … 1024 i + 1023 of the output, and the eight
  partial products add up to the whole sum; the sixteen written blocks cover the output.
-/
import proofs.«151274_j27419071218491_2_alg».proof.Proof.KI.Region1
import proofs.«151274_j27419071218491_2_alg».proof.Proof.Val.Sums

set_option maxRecDepth 16384

noncomputable section

open scoped BigOperators

namespace Cert.KernelIdeal.Fr

open Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The two matrices and the staged blocks, at their literal array types -/

/-- The feature matrix as the region finds it. -/
def Xarr (c : Dev nD) : S16384x16384.Idx → EReal := V m c main_arg0
/-- The joined weight matrix as the region finds it. -/
def Warr (c : Dev nD) : S16384x32.Idx → EReal := V m c main_v11
/-- The feature block staged at point `t`. -/
def xblk (c : Dev nD) (t : Fin cfg0.N) : S1024x2048.Idx → EReal := iblk m c 0 t
/-- The weight matrix as staged at point `t` (the whole matrix). -/
def wblk (c : Dev nD) (t : Fin cfg0.N) : S16384x32.Idx → EReal := iblk m c 1 t

/-! ## The two matrices read at natural-number coordinates -/

/-- The feature matrix as the region finds it, at row `r` and column `s` (zero outside the matrix). -/
def Xn (c : Dev nD) (r s : ℕ) : EReal :=
  if h : r < 16384 ∧ s < 16384 then Xarr m c (ix2 ⟨r, h.1⟩ ⟨s, h.2⟩) else 0
/-- The joined weight matrix as the region finds it. -/
def Wn (c : Dev nD) (s q : ℕ) : EReal :=
  if h : s < 16384 ∧ q < 32 then Warr m c (ix2 ⟨s, h.1⟩ ⟨q, h.2⟩) else 0

theorem Xn_eq (c : Dev nD) (r s : Fin 16384) : Xn m c r.val s.val = Xarr m c (ix2 r s) := by
  unfold Xn; rw [dif_pos ⟨r.isLt, s.isLt⟩]
theorem Wn_eq (c : Dev nD) (s : Fin 16384) (q : Fin 32) : Wn m c s.val q.val = Warr m c (ix2 s q) := by
  unfold Wn; rw [dif_pos ⟨s.isLt, q.isLt⟩]

/-- The partial product of block `k` of the contraction, for output row `r` and column `q`. -/
def part (c : Dev nD) (r k q : ℕ) : EReal := ∑ j : Fin 2048, Xn m c r (2048 * k + j.val) * Wn m c (2048 * k + j.val) q

/-! ## The blocks the body loads -/

/-- The printed index maps and the body's row offset, decided over the grid: point n = 8 i + k stages block (i, k)
    of the feature matrix, the whole weight matrix, output block (i, 0), and loads weight rows from 2048 k. -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = 0
    ∧ k0_off1 (grid0.coords t) (0 : Fin 2) = 2048 * (t.val % 8) ∧ k0_off1 (grid0.coords t) (1 : Fin 2) = 0 :=
  (by decide +kernel : ∀ t : Fin grid0.N, _)

/-- The feature block at point `t`, entry (p, j), is X (1024 (t / 8) + p, 2048 (t % 8) + j). -/
theorem xblock_apply (c : Dev nD) (t : Fin cfg0.N) (p : Fin 1024) (j : Fin 2048) :
    xblk m c t (ix2 p j) = Xn m c (1024 * (t.val / 8) + p.val) (2048 * (t.val % 8) + j.val) := by
  obtain ⟨e0, e1, -⟩ := idx_facts t
  have hN : t.val < 128 := lt_of_lt_of_eq t.isLt (show cfg0.N = 128 from N_0)
  have hp := p.isLt; have hj := j.isLt
  have hr : 1024 * (t.val / 8) + p.val < 16384 := by omega
  have hs : 2048 * (t.val % 8) + j.val < 16384 := by omega
  rw [show Xn m c (1024 * (t.val / 8) + p.val) (2048 * (t.val % 8) + j.val) = _ from Xn_eq m c ⟨_, hr⟩ ⟨_, hs⟩]
  show V m c main_arg0 (((cfg0.win 0).blk t).view.emb (ix2 p j)) = V m c main_arg0 (ix2 ⟨_, hr⟩ ⟨_, hs⟩)
  refine congrArg _ ?_
  funext a; apply Fin.ext
  match a with
  | ⟨0, _⟩ => show win0_0.index t (0 : Fin 2) * 1024 + 1 * p.val = 1024 * (t.val / 8) + p.val; omega
  | ⟨1, _⟩ => show win0_0.index t (1 : Fin 2) * 2048 + 1 * j.val = 2048 * (t.val % 8) + j.val; omega

/-- The weight rows the body loads at point `t`, entry (j, q), are W (2048 (t % 8) + j, q). -/
theorem wrows_apply (c : Dev nD) (t : Fin cfg0.N) (j : Fin 2048) (q : Fin 32) :
    wrows (F := Ideal) (grid0.coords t) (wblk m c t) (ix2 j q) = Wn m c (2048 * (t.val % 8) + j.val) q.val := by
  obtain ⟨-, -, e2, e3, -, -, e6, e7⟩ := idx_facts t
  have hN : t.val < 128 := lt_of_lt_of_eq t.isLt (show cfg0.N = 128 from N_0)
  have hj := j.isLt; have hq := q.isLt
  have hs : 2048 * (t.val % 8) + j.val < 16384 := by omega
  rw [show Wn m c (2048 * (t.val % 8) + j.val) q.val = _ from Wn_eq m c ⟨_, hs⟩ q]
  show V m c main_v11 (((cfg0.win 1).blk t).view.emb ((Rect.unit (s := S16384x32) (k0_off1 (grid0.coords t)) S2048x32.size (k0_off1_inb (grid0.coords t))).idx (ix2 j q))) = V m c main_v11 (ix2 ⟨_, hs⟩ q)
  refine congrArg _ ?_
  funext a; apply Fin.ext
  match a with
  | ⟨0, _⟩ => show win0_1.index t (0 : Fin 2) * 16384 + 1 * (k0_off1 (grid0.coords t) (0 : Fin 2) + 1 * j.val) = 2048 * (t.val % 8) + j.val; omega
  | ⟨1, _⟩ => show win0_1.index t (1 : Fin 2) * 32 + 1 * (k0_off1 (grid0.coords t) (1 : Fin 2) + 1 * q.val) = q.val; omega

/-- What point `t` adds to the accumulator's entry (p, q). -/
theorem point_part (c : Dev nD) (t : Fin cfg0.N) (p : Fin 1024) (q : Fin 32) :
    (∑ j : Fin 2048, xblk m c t (ix2 p j) * wrows (F := Ideal) (grid0.coords t) (wblk m c t) (ix2 j q))
      = part m c (1024 * (t.val / 8) + p.val) (t.val % 8) q.val :=
  Finset.sum_congr rfl fun j _ => by rw [xblock_apply, wrows_apply]

/-! ## The accumulator as a sum of partial products -/

theorem accAt_sum (c : Dev nD) : ∀ (n : ℕ) (hn : n < cfg0.N) (p : Fin 1024) (q : Fin 32),
    accAt m c n hn (ix2 p q) = ∑ k ∈ Finset.range (n % 8 + 1), part m c (1024 * (n / 8) + p.val) k q.val
  | 0, hn, p, q => by
    rw [show accAt m c 0 hn = accStep (grid0.coords ⟨0, hn⟩) (xblk m c ⟨0, hn⟩) (wblk m c ⟨0, hn⟩) (k0_pay1 (F := Ideal)) from rfl,
      accStep_apply, zero_apply, zero_add, point_part]
    simp
  | n + 1, hn, p, q => by
    by_cases h0 : (n + 1) % 8 = 0
    · rw [accAt_first m c ⟨n + 1, hn⟩ h0, show accStep (grid0.coords ⟨n + 1, hn⟩) (iblk m c 0 ⟨n + 1, hn⟩) (iblk m c 1 ⟨n + 1, hn⟩) (k0_pay1 (F := Ideal))
          = accStep (grid0.coords ⟨n + 1, hn⟩) (xblk m c ⟨n + 1, hn⟩) (wblk m c ⟨n + 1, hn⟩) (k0_pay1 (F := Ideal)) from rfl,
        accStep_apply, zero_apply, zero_add, point_part]
      show part m c (1024 * ((n + 1) / 8) + p.val) ((n + 1) % 8) q.val = _
      rw [h0]; simp
    · rw [accAt_next m c ⟨n + 1, hn⟩ h0, show ∀ a, accStep (grid0.coords ⟨n + 1, hn⟩) (iblk m c 0 ⟨n + 1, hn⟩) (iblk m c 1 ⟨n + 1, hn⟩) a
          = accStep (grid0.coords ⟨n + 1, hn⟩) (xblk m c ⟨n + 1, hn⟩) (wblk m c ⟨n + 1, hn⟩) a from fun _ => rfl,
        accStep_apply, point_part]
      show accAt m c n _ (ix2 p q) + part m c (1024 * ((n + 1) / 8) + p.val) ((n + 1) % 8) q.val = _
      rw [accAt_sum c n (Nat.lt_of_succ_lt hn) p q]
      have e1 : (n + 1) / 8 = n / 8 := by omega
      have e2 : (n + 1) % 8 = n % 8 + 1 := by omega
      rw [e1, e2, Finset.sum_range_succ (fun k => part m c (1024 * (n / 8) + p.val) k q.val) (n % 8 + 1)]

/-- The eight partial products of a row add up to the whole product. -/
theorem parts_sum (c : Dev nD) (r : Fin 16384) (q : Fin 32) :
    (∑ k ∈ Finset.range 8, part m c r.val k q.val)
      = ∑ j : Fin 16384, Xarr m c (ix2 r j) * Warr m c (ix2 j q) := by
  rw [Finset.sum_range (fun k => part m c r.val k q.val)]
  unfold part
  rw [Cert.Bridge.sum_blocks (fun i : Fin 16384 => Xn m c r.val i.val * Wn m c i.val q.val)]
  exact Finset.sum_congr rfl fun j _ => by rw [Xn_eq, Wn_eq]

end Cert.KernelIdeal.Fr

end
-- ==== Proof.KI.Region3.lean ====
/-
  The output array of `KernelIdeal`'s region after the run, at the ideal values, is the matrix product
  out (r, q) = ∑ j < 16384, X (r, j) · W (j, q) of the feature matrix with the joined weight matrix: the point
  8 i + 7 writes back, as rows 1024 i … 1024 i + 1023, the accumulator holding the eight partial products of
  those rows, and the sixteen written blocks cover the [16384, 32] output.
-/
import proofs.«151274_j27419071218491_2_alg».proof.Proof.KI.Region2

set_option maxRecDepth 16384

noncomputable section

open scoped BigOperators

namespace Cert.KernelIdeal.Fr

open Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The product matrix, entry by entry. -/
def prodFn (c : Dev nD) : S16384x32.Idx → EReal := fun i => ∑ j : Fin 16384, Xn m c (i 0).val j.val * Wn m c j.val (i 1).val

/-- An entry of the product matrix, over the matrices as the region finds them. -/
theorem prodFn_apply (c : Dev nD) (r : Fin 16384) (q : Fin 32) (i : S16384x32.Idx) (h0 : (i 0).val = r.val) (h1 : (i 1).val = q.val) :
    prodFn m c i = ∑ j : Fin 16384, Xarr m c (ix2 r j) * Warr m c (ix2 j q) := by
  unfold prodFn
  rw [h0, h1]
  exact Finset.sum_congr rfl fun j _ => by rw [Xn_eq, Wn_eq]

/-- The eight partial products of an entry's row add up to the entry of the product matrix. -/
theorem parts_prod (c : Dev nD) (i : S16384x32.Idx) :
    (∑ k ∈ Finset.range 8, part m c (i 0).val k (i 1).val) = prodFn m c i := by
  rw [Finset.sum_range (fun k => part m c (i 0).val k (i 1).val)]
  unfold part prodFn
  exact Cert.Bridge.sum_blocks (fun j : Fin 16384 => Xn m c (i 0).val j.val * Wn m c j.val (i 1).val)

/-- The accumulator's entry at any index of its [1024, 32] shape. -/
theorem accAt_sum' (c : Dev nD) (n : ℕ) (hn : n < cfg0.N) (y : S1024x32.Idx) :
    accAt m c n hn y = ∑ k ∈ Finset.range (n % 8 + 1), part m c (1024 * (n / 8) + (y 0).val) k (y 1).val := by
  obtain ⟨p, q, rfl⟩ : ∃ (p : Fin 1024) (q : Fin 32), y = ix2 p q := ⟨y 0, y 1, eq_ix2 y⟩
  exact accAt_sum m c n hn p q

/-- What the point 8 i + 7 writes back is its block of the product matrix. -/
theorem flushed_eq (c : Dev nD) (t : Fin cfg0.N) (hf : t.val % 8 = 7) :
    (dats m 0 c).flushed 2 t = ((cfg0.win 2).blk t).view.read (Elt Ideal) (prodFn m c) := by
  show (cfg0.win 2).cut (grid0.coords t) ((dats m 0 c).after 2 t) = _
  rw [after0_2]
  funext y
  rw [View.read_apply]
  show accAt m c t.val t.isLt ((cfg0.win 2).xinj (grid0.coords t) y) = _
  obtain ⟨-, -, -, -, e4, e5, -⟩ := idx_facts t
  have hN : t.val < 128 := lt_of_lt_of_eq t.isLt (show cfg0.N = 128 from N_0)
  have h0 : (y 0).val < 1024 := ((cfg0.win 2).xinj (grid0.coords t) y 0).isLt
  have h1 : (y 1).val < 32 := ((cfg0.win 2).xinj (grid0.coords t) y 1).isLt
  have hr : 1024 * (t.val / 8) + (y 0).val < 16384 := by omega
  rw [accAt_sum', hf]
  have ea : ((((cfg0.win 2).blk t).view.emb y) 0).val = 1024 * (t.val / 8) + (y 0).val := by
    show win0_2.index t (0 : Fin 2) * 1024 + 1 * (y 0).val = _; omega
  have eb : ((((cfg0.win 2).blk t).view.emb y) 1).val = (y 1).val := by
    show win0_2.index t (1 : Fin 2) * 32 + 1 * (y 1).val = _; omega
  rw [← parts_prod m c (((cfg0.win 2).blk t).view.emb y), ea, eb]
  rfl

/-- An entry of the output is in point `t`'s block iff each coordinate is in the block's range on its axis. -/
theorem mem_blk (t : Fin cfg0.N) (i : S16384x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v12).slice (win0_2.rect t)).set ↔ _
  rw [View.set_slice_whole, Rect.mem_set_unit]
  exact Iff.rfl

/-- Row r of the output is written back by the point 8 (r / 1024) + 7. -/
theorem covered (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  have hn : 8 * ((i 0).val / 1024) + 7 < cfg0.N := lt_of_lt_of_eq (by omega) N_0.symm
  obtain ⟨-, -, -, -, e4, e5, -⟩ := idx_facts ⟨8 * ((i 0).val / 1024) + 7, hn⟩
  have e4' : win0_2.index ⟨8 * ((i 0).val / 1024) + 7, hn⟩ (0 : Fin 2) = (8 * ((i 0).val / 1024) + 7) / 8 := e4
  refine ⟨⟨8 * ((i 0).val / 1024) + 7, hn⟩, (flush0_2 _).mpr (by show (8 * ((i 0).val / 1024) + 7) % 8 = 7; omega), ?_⟩
  rw [mem_blk]
  intro a
  match a with
  | ⟨0, _⟩ =>
    show win0_2.index ⟨8 * ((i 0).val / 1024) + 7, hn⟩ (0 : Fin 2) * 1024 ≤ (i 0).val ∧ (i 0).val < win0_2.index ⟨8 * ((i 0).val / 1024) + 7, hn⟩ (0 : Fin 2) * 1024 + 1024
    omega
  | ⟨1, _⟩ =>
    show win0_2.index ⟨8 * ((i 0).val / 1024) + 7, hn⟩ (1 : Fin 2) * 32 ≤ (i 1).val ∧ (i 1).val < win0_2.index ⟨8 * ((i 0).val / 1024) + 7, hn⟩ (1 : Fin 2) * 32 + 32
    omega

/-- The output array after the run is the product matrix. -/
theorem region_array (c : Dev nD) : (dats m 0 c).arrAt 2 cfg0.N = prodFn m c :=
  (dats m 0 c).arrAt_eq_of_cover 2 (prodFn m c) (fun t hf => flushed_eq m c t ((flush0_2 t).mp hf)) (covered)

/-- The output array after the run, at its literal array type. -/
def Harr (c : Dev nD) : S16384x32.Idx → EReal := (dats m 0 c).arrAt 2 cfg0.N

/-- Entry (i, q) of it, over the matrices as the region finds them. -/
theorem region_value (c : Dev nD) (i : Fin 16384) (q : Fin 32) :
    Harr m c (ix2 i q) = ∑ j : Fin 16384, Xarr m c (ix2 i j) * Warr m c (ix2 j q) := by
  unfold Harr
  rw [region_array]
  exact prodFn_apply m c i q _ rfl rfl

end Cert.KernelIdeal.Fr

end
-- ==== Proof.Val.Tail.lean ====
/-
  The kernel's host side as ONE function of the region's output. After the region the program slices its
  [16384, 32] output H into the column halves H[:, 0:16] and H[:, 16:32] and runs the first layer's mean
  aggregation and activation, two more layers and the output projection; the edge list's two rows and the degree
  column were computed once, before the region, together with the joined first-layer weight matrix. Here that
  chain is named stage by stage, the buffers written before the region are read off as their operations' terms,
  and the seventy-three operations after the region are shown to be the chain applied to the two halves.
-/
import proofs.«151274_j27419071218491_2_alg».proof.Proof.KI.Kit
import Idealize.ShloMosaic.Lib.StableHlo.Run

set_option maxRecDepth 16384

noncomputable section

namespace Cert.Bridge.K

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable {F : FTy → Type} [FloatOps F]

/-- The index column a row lookup takes: an entry below zero counts from the end (16384 is added to it). -/
def lookupIdx (src : (⟨S524288, .i32⟩ : BufTy).Contents (Elt F)) : (⟨S524288x1, .i32⟩ : BufTy).Contents (Elt F) :=
  broadcastInDim S524288x1 ![0] bcast_S524288_S524288x1_0
    (select (cmpi .slt src (broadcastInDim S524288 ![] bcast_S_S524288 (constantI S_ 32 0#32)))
      (addi src (broadcastInDim S524288 ![] bcast_S_S524288 (constantI S_ 32 16384#32))) src)

/-- The matrix of zeros a segment sum starts from. -/
def zeros16 : (⟨S16384x16, .f32⟩ : BufTy).Contents (Elt F) :=
  broadcastInDim S16384x16 ![] bcast_S_S16384x16 (constant S_ .f32 0x00000000#32)

/-- Mean aggregation: row `dst e` collects row `src e` of `h` over all edges `e`, and each row is divided by its
    node's degree column entry. -/
def meanAgg (h : (⟨S16384x16, .f32⟩ : BufTy).Contents (Elt F)) (src dst : (⟨S524288, .i32⟩ : BufTy).Contents (Elt F)) (deg : (⟨S16384x1, .f32⟩ : BufTy).Contents (Elt F)) : (⟨S16384x16, .f32⟩ : BufTy).Contents (Elt F) :=
  Host.divf
    (Host.scatterAdd scatter_S16384x16_S524288x1_S524288x16_1_0_0_1 zeros16
      (broadcastInDim S524288x1 ![0] bcast_S524288_S524288x1_0 dst)
      (Host.gather gather_S16384x16_S524288x1_S524288x16_1_0_n_n_0_1_116 h (lookupIdx src)))
    (broadcastInDim S16384x16 ![0, 1] bcast_S16384x1_S16384x16_0_1 deg)

/-- A bias vector repeated on every row. -/
def biasRows (b : (⟨S16, .f32⟩ : BufTy).Contents (Elt F)) : (⟨S16384x16, .f32⟩ : BufTy).Contents (Elt F) :=
  broadcastInDim S16384x16 ![0, 1] bcast_S1x16_S16384x16_0_1 (broadcastInDim S1x16 ![1] bcast_S16_S1x16_1 b)

/-- One layer before its activation, from the two products `p = h · Wl` and `q = h · Wr`:
    mean aggregation of `p`, plus the bias, plus `q`. -/
def sage (p q : (⟨S16384x16, .f32⟩ : BufTy).Contents (Elt F)) (src dst : (⟨S524288, .i32⟩ : BufTy).Contents (Elt F)) (deg : (⟨S16384x1, .f32⟩ : BufTy).Contents (Elt F)) (b : (⟨S16, .f32⟩ : BufTy).Contents (Elt F)) : (⟨S16384x16, .f32⟩ : BufTy).Contents (Elt F) :=
  addf (addf (meanAgg p src dst deg) (biasRows b)) q

/-- The activation: the maximum with zero. -/
def relu16 (h : (⟨S16384x16, .f32⟩ : BufTy).Contents (Elt F)) : (⟨S16384x16, .f32⟩ : BufTy).Contents (Elt F) := maximumf h zeros16

/-- A later layer before its activation, from the previous layer's output `h`. -/
def layer (h : (⟨S16384x16, .f32⟩ : BufTy).Contents (Elt F)) (Wl Wr : (⟨S16x16, .f32⟩ : BufTy).Contents (Elt F)) (src dst : (⟨S524288, .i32⟩ : BufTy).Contents (Elt F)) (deg : (⟨S16384x1, .f32⟩ : BufTy).Contents (Elt F)) (b : (⟨S16, .f32⟩ : BufTy).Contents (Elt F)) : (⟨S16384x16, .f32⟩ : BufTy).Contents (Elt F) :=
  sage (Host.dotGeneral dot_S16384x16_S16x16_S16384x16_1_0_0_1_n_n none h Wl) (Host.dotGeneral dot_S16384x16_S16x16_S16384x16_1_0_0_1_n_n none h Wr) src dst deg b

/-- The output projection with its bias. -/
def project (h : (⟨S16384x16, .f32⟩ : BufTy).Contents (Elt F)) (Wo : (⟨S16x237, .f32⟩ : BufTy).Contents (Elt F)) (bo : (⟨S237, .f32⟩ : BufTy).Contents (Elt F)) : (⟨S16384x237, .f32⟩ : BufTy).Contents (Elt F) :=
  addf (Host.dotGeneral dot_S16384x16_S16x237_S16384x237_1_0_0_1_n_n none h Wo)
    (broadcastInDim S16384x237 ![0, 1] bcast_S1x237_S16384x237_0_1 (broadcastInDim S1x237 ![1] bcast_S237_S1x237_1 bo))

/-- Everything after the first layer's two products `p = x · W1l` and `q = x · W1r`: the first layer's aggregation
    and activation, the second and third layers, and the output projection. -/
def network (p q : (⟨S16384x16, .f32⟩ : BufTy).Contents (Elt F)) (src dst : (⟨S524288, .i32⟩ : BufTy).Contents (Elt F)) (deg : (⟨S16384x1, .f32⟩ : BufTy).Contents (Elt F))
    (b1 : (⟨S16, .f32⟩ : BufTy).Contents (Elt F)) (W2l : (⟨S16x16, .f32⟩ : BufTy).Contents (Elt F)) (b2 : (⟨S16, .f32⟩ : BufTy).Contents (Elt F)) (W2r W3l : (⟨S16x16, .f32⟩ : BufTy).Contents (Elt F)) (b3 : (⟨S16, .f32⟩ : BufTy).Contents (Elt F)) (W3r : (⟨S16x16, .f32⟩ : BufTy).Contents (Elt F))
    (Wo : (⟨S16x237, .f32⟩ : BufTy).Contents (Elt F)) (bo : (⟨S237, .f32⟩ : BufTy).Contents (Elt F)) : (⟨S16384x237, .f32⟩ : BufTy).Contents (Elt F) :=
  project (layer (relu16 (layer (relu16 (sage p q src dst deg b1)) W2l W2r src dst deg b2)) W3l W3r src dst deg b3) Wo bo

/-- The edge list's row `r` as a vector. -/
def srcRow (e : (⟨S2x524288, .i32⟩ : BufTy).Contents (Elt F)) : (⟨S524288, .i32⟩ : BufTy).Contents (Elt F) :=
  shapeCast _ (extractStridedSlice S1x524288 ![0, 0] e slices_S2x524288_S1x524288_0_0) shapeCasts_S1x524288_S524288
def dstRow (e : (⟨S2x524288, .i32⟩ : BufTy).Contents (Elt F)) : (⟨S524288, .i32⟩ : BufTy).Contents (Elt F) :=
  shapeCast _ (extractStridedSlice S1x524288 ![1, 0] e slices_S2x524288_S1x524288_1_0) shapeCasts_S1x524288_S524288

/-- The degree column: the number of edges into each node, at least one. -/
def degCol (dst : (⟨S524288, .i32⟩ : BufTy).Contents (Elt F)) : (⟨S16384x1, .f32⟩ : BufTy).Contents (Elt F) :=
  broadcastInDim S16384x1 ![0] bcast_S16384_S16384x1_0
    (maximumf
      (Host.scatterAdd scatter_S16384_S524288x1_S524288_n_0_0_1
        (broadcastInDim S16384 ![] bcast_S_S16384 (constant S_ .f32 0x00000000#32))
        (broadcastInDim S524288x1 ![0] bcast_S524288_S524288x1_0 dst)
        (broadcastInDim S524288 ![] bcast_S_S524288 (constant S_ .f32 0x3F800000#32)))
      (broadcastInDim S16384 ![] bcast_S_S16384 (constant S_ .f32 0x3F800000#32)))

variable (m : (ℓ : Loc nD τ sig) → Buf (Elt F) ℓ)

/-! ## What the region finds: the buffers written before it -/

/-- An argument array is found as launched. -/
theorem V_arg (c : Dev nD) (b : Ref sig .tc) (hb : b ∈ ([main_arg0, main_arg1, main_arg2, main_arg3, main_arg4, main_arg5, main_arg6, main_arg7, main_arg8, main_arg9, main_arg10, main_arg11, main_arg12] : List (Ref sig .tc))) :
    V m c b = m ((c : Thread nD τ).loc b) :=
  V_of_unwritten m c b (pre_unwritten b hb)

/-- The joined weight matrix: the two first-layer weight matrices side by side. -/
theorem V_joined (c : Dev nD) :
    (V m c main_v11 : (⟨S16384x32, .f32⟩ : BufTy).Contents (Elt F))
      = concatenate S16384x32 1 [⟨S16384x16, (m ((c : Thread nD τ).loc main_arg2))⟩, ⟨S16384x16, (m ((c : Thread nD τ).loc main_arg4))⟩] concatenates_S16384x16_S16384x16_S16384x32_d1 := by
  show StableHlo.after (List.flatten [hostOps0]) (fun b => m (c, b)) (Proc.devRef .tc main_v11) = _
  simp only [hostOps0, List.flatten_cons, List.flatten_nil, List.append_nil]
  after_results <;> rfl

/-- The edge list's first row, as a vector. -/
theorem V_src (c : Dev nD) : (V m c main_v1 : (⟨S524288, .i32⟩ : BufTy).Contents (Elt F)) = srcRow (m ((c : Thread nD τ).loc main_arg1)) := by
  show StableHlo.after (List.flatten [hostOps0]) (fun b => m (c, b)) (Proc.devRef .tc main_v1) = _
  simp only [hostOps0, List.flatten_cons, List.flatten_nil, List.append_nil]
  after_results <;> rfl

/-- The edge list's second row, as a vector. -/
theorem V_dst (c : Dev nD) : (V m c main_v3 : (⟨S524288, .i32⟩ : BufTy).Contents (Elt F)) = dstRow (m ((c : Thread nD τ).loc main_arg1)) := by
  show StableHlo.after (List.flatten [hostOps0]) (fun b => m (c, b)) (Proc.devRef .tc main_v3) = _
  simp only [hostOps0, List.flatten_cons, List.flatten_nil, List.append_nil]
  after_results <;> rfl

/-- The degree column, computed once from the edge list's second row. -/
theorem V_deg (c : Dev nD) : (V m c main_v10 : (⟨S16384x1, .f32⟩ : BufTy).Contents (Elt F)) = degCol (dstRow (m ((c : Thread nD τ).loc main_arg1))) := by
  show StableHlo.after (List.flatten [hostOps0]) (fun b => m (c, b)) (Proc.devRef .tc main_v10) = _
  simp only [hostOps0, List.flatten_cons, List.flatten_nil, List.append_nil]
  after_results <;> rfl

/-! ## The operations after the region -/

set_option maxHeartbeats 4000000 in
/-- The seventy-three operations after the region, from any buffer contents `W`: the result is the chain after the
    first layer's products, applied to the two column halves of the region's output and to the buffers the
    operations before the region wrote. -/
theorem after_tail (W : Valuation τ sig (Elt F)) :
    StableHlo.after (List.flatten (tailOps (F := F))) W (Proc.devRef .tc main_v72)
    = network (extractStridedSlice S16384x16 ![0, 0] (W (Proc.devRef .tc main_v12)) slices_S16384x32_S16384x16_0_0)
        (extractStridedSlice S16384x16 ![0, 16] (W (Proc.devRef .tc main_v12)) slices_S16384x32_S16384x16_0_16)
        (W (Proc.devRef .tc main_v1)) (W (Proc.devRef .tc main_v3)) (W (Proc.devRef .tc main_v10))
        (W (Proc.devRef .tc main_arg3)) (W (Proc.devRef .tc main_arg5)) (W (Proc.devRef .tc main_arg6)) (W (Proc.devRef .tc main_arg7))
        (W (Proc.devRef .tc main_arg8)) (W (Proc.devRef .tc main_arg9)) (W (Proc.devRef .tc main_arg10)) (W (Proc.devRef .tc main_arg11)) (W (Proc.devRef .tc main_arg12)) := by
  simp only [tailOps, hostOps1, hostOps1_1, hostOps1_2, hostOps1_3, hostOps1_4, List.flatten_cons, List.flatten_nil, List.append_nil, List.cons_append, List.nil_append]
  after_results_simp
  rfl

end Cert.Bridge.K

end
-- ==== Proof.Val.KResult.lean ====
/-
  The kernel's result buffer as the chain after the first layer's products, applied to the two column halves of
  the region's output array and to the edge rows, the degree column and the argument arrays as launched.
-/
import proofs.«151274_j27419071218491_2_alg».proof.Proof.Val.Tail

set_option maxRecDepth 16384

noncomputable section

namespace Cert.Bridge.K

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The kernel's result buffer after the whole program: the chain after the first layer's products, applied to the
    two column halves of the region's output `H`, the edge list's rows, the degree column and the argument arrays.
    The operations after the region read the region's output array where the region left it and every other
    buffer where the operations before the region left it. -/
theorem result_eq (dats : (p : Fin 1) → (c : Dev nD) → Dat τ (Elt F) Unit ℕ (UR sig nD τ) ℕ (cfgs p) c) (c : Dev nD) :
    Pipeline.afterTail₀ cfgs dats 0 (V0 m) tailOps c main_v72
    = network (extractStridedSlice S16384x16 ![0, 0] ((dats 0 c).arrAt 2 cfg0.N) slices_S16384x32_S16384x16_0_0)
        (extractStridedSlice S16384x16 ![0, 16] ((dats 0 c).arrAt 2 cfg0.N) slices_S16384x32_S16384x16_0_16)
        (srcRow (m ((c : Thread nD τ).loc main_arg1))) (dstRow (m ((c : Thread nD τ).loc main_arg1))) (degCol (dstRow (m ((c : Thread nD τ).loc main_arg1))))
        (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  refine (after_tail _).trans ?_
  have eH : Pipeline.withArrays (cfgs 0).spec c (V0 m c) (fun w => (dats 0 c).arrAt w (cfgs 0).N) (Proc.devRef .tc main_v12) = (dats 0 c).arrAt 2 cfg0.N :=
    Pipeline.withArrays_arr spec0 launch0.win.arr_inj c (V0 m c) (fun w => (dats 0 c).arrAt w cfg0.N) 2
  have ne : ∀ (b : Ref sig .tc), (∀ w, Pipeline.arrRef spec0 w ≠ b) →
      Pipeline.withArrays (cfgs 0).spec c (V0 m c) (fun w => (dats 0 c).arrAt w (cfgs 0).N) (Proc.devRef .tc b) = V m c b :=
    fun b hb => Pipeline.withArrays_of_ne spec0 c (V0 m c) _ b hb
  have e1 := (ne main_v1 (by decide)).trans (V_src m c)
  have e3 := (ne main_v3 (by decide)).trans (V_dst m c)
  have e10 := (ne main_v10 (by decide)).trans (V_deg m c)
  have a3 := (ne main_arg3 (by decide)).trans (V_arg m c main_arg3 (by simp))
  have a5 := (ne main_arg5 (by decide)).trans (V_arg m c main_arg5 (by simp))
  have a6 := (ne main_arg6 (by decide)).trans (V_arg m c main_arg6 (by simp))
  have a7 := (ne main_arg7 (by decide)).trans (V_arg m c main_arg7 (by simp))
  have a8 := (ne main_arg8 (by decide)).trans (V_arg m c main_arg8 (by simp))
  have a9 := (ne main_arg9 (by decide)).trans (V_arg m c main_arg9 (by simp))
  have a10 := (ne main_arg10 (by decide)).trans (V_arg m c main_arg10 (by simp))
  have a11 := (ne main_arg11 (by decide)).trans (V_arg m c main_arg11 (by simp))
  have a12 := (ne main_arg12 (by decide)).trans (V_arg m c main_arg12 (by simp))
  rw [eH, e1, e3, e10, a3, a5, a6, a7, a8, a9, a10, a11, a12]

end Cert.Bridge.K

end
-- ==== Proof.Val.RefSide.lean ====
/-
  The reference's result as ONE function of its two first-layer products. The reference computes
  p = x · W1l and q = x · W1r as two products, then the first layer's mean aggregation and activation, two more
  layers and the output projection; the edge list's two rows and the degree column (recomputed by the reference in
  every layer, always from the same edge row) enter as the same three terms each time. Here that chain is named
  stage by stage, and the reference run's composed result term is shown to be the chain applied to the two products.
-/
import proofs.«151274_j27419071218491_2_alg».proof.Proof.Gen.ReferenceIdeal.Read

set_option maxRecDepth 16384

noncomputable section

namespace Cert.Bridge.R

open Cert.ReferenceIdeal Cert.ReferenceIdeal.Gen
open Idealize.ShloMosaic Idealize.ShloMosaic.TcCoe Idealize.SL.Sem Idealize.ShloMosaic.StableHlo

variable {F : FTy → Type} [FloatOps F]

/-- The index column a row lookup takes: an entry below zero counts from the end (16384 is added to it). -/
def lookupIdx (src : (⟨S524288, .i32⟩ : BufTy).Contents (Elt F)) : (⟨S524288x1, .i32⟩ : BufTy).Contents (Elt F) :=
  broadcastInDim S524288x1 ![0] bcast_S524288_S524288x1_0
    (select (cmpi .slt src (broadcastInDim S524288 ![] bcast_S_S524288 (constantI S_ 32 0#32)))
      (addi src (broadcastInDim S524288 ![] bcast_S_S524288 (constantI S_ 32 16384#32))) src)

/-- The matrix of zeros a segment sum starts from. -/
def zeros16 : (⟨S16384x16, .f32⟩ : BufTy).Contents (Elt F) :=
  broadcastInDim S16384x16 ![] bcast_S_S16384x16 (constant S_ .f32 0x00000000#32)

/-- Mean aggregation: row `dst e` collects row `src e` of `h` over all edges `e`, and each row is divided by its
    node's degree column entry. -/
def meanAgg (h : (⟨S16384x16, .f32⟩ : BufTy).Contents (Elt F)) (src dst : (⟨S524288, .i32⟩ : BufTy).Contents (Elt F)) (deg : (⟨S16384x1, .f32⟩ : BufTy).Contents (Elt F)) : (⟨S16384x16, .f32⟩ : BufTy).Contents (Elt F) :=
  Host.divf
    (Host.scatterAdd scatter_S16384x16_S524288x1_S524288x16_1_0_0_1 zeros16
      (broadcastInDim S524288x1 ![0] bcast_S524288_S524288x1_0 dst)
      (Host.gather gather_S16384x16_S524288x1_S524288x16_1_0_n_n_0_1_116 h (lookupIdx src)))
    (broadcastInDim S16384x16 ![0, 1] bcast_S16384x1_S16384x16_0_1 deg)

/-- A bias vector repeated on every row. -/
def biasRows (b : (⟨S16, .f32⟩ : BufTy).Contents (Elt F)) : (⟨S16384x16, .f32⟩ : BufTy).Contents (Elt F) :=
  broadcastInDim S16384x16 ![0, 1] bcast_S1x16_S16384x16_0_1 (broadcastInDim S1x16 ![1] bcast_S16_S1x16_1 b)

/-- One layer before its activation, from the two products `p = h · Wl` and `q = h · Wr`:
    mean aggregation of `p`, plus the bias, plus `q`. -/
def sage (p q : (⟨S16384x16, .f32⟩ : BufTy).Contents (Elt F)) (src dst : (⟨S524288, .i32⟩ : BufTy).Contents (Elt F)) (deg : (⟨S16384x1, .f32⟩ : BufTy).Contents (Elt F)) (b : (⟨S16, .f32⟩ : BufTy).Contents (Elt F)) : (⟨S16384x16, .f32⟩ : BufTy).Contents (Elt F) :=
  addf (addf (meanAgg p src dst deg) (biasRows b)) q

/-- The activation: the maximum with zero. -/
def relu16 (h : (⟨S16384x16, .f32⟩ : BufTy).Contents (Elt F)) : (⟨S16384x16, .f32⟩ : BufTy).Contents (Elt F) := maximumf h zeros16

/-- A later layer before its activation, from the previous layer's output `h`. -/
def layer (h : (⟨S16384x16, .f32⟩ : BufTy).Contents (Elt F)) (Wl Wr : (⟨S16x16, .f32⟩ : BufTy).Contents (Elt F)) (src dst : (⟨S524288, .i32⟩ : BufTy).Contents (Elt F)) (deg : (⟨S16384x1, .f32⟩ : BufTy).Contents (Elt F)) (b : (⟨S16, .f32⟩ : BufTy).Contents (Elt F)) : (⟨S16384x16, .f32⟩ : BufTy).Contents (Elt F) :=
  sage (Host.dotGeneral dot_S16384x16_S16x16_S16384x16_1_0_0_1_n_n none h Wl) (Host.dotGeneral dot_S16384x16_S16x16_S16384x16_1_0_0_1_n_n none h Wr) src dst deg b

/-- The output projection with its bias. -/
def project (h : (⟨S16384x16, .f32⟩ : BufTy).Contents (Elt F)) (Wo : (⟨S16x237, .f32⟩ : BufTy).Contents (Elt F)) (bo : (⟨S237, .f32⟩ : BufTy).Contents (Elt F)) : (⟨S16384x237, .f32⟩ : BufTy).Contents (Elt F) :=
  addf (Host.dotGeneral dot_S16384x16_S16x237_S16384x237_1_0_0_1_n_n none h Wo)
    (broadcastInDim S16384x237 ![0, 1] bcast_S1x237_S16384x237_0_1 (broadcastInDim S1x237 ![1] bcast_S237_S1x237_1 bo))

/-- Everything after the first layer's two products `p = x · W1l` and `q = x · W1r`: the first layer's aggregation
    and activation, the second and third layers, and the output projection. -/
def network (p q : (⟨S16384x16, .f32⟩ : BufTy).Contents (Elt F)) (src dst : (⟨S524288, .i32⟩ : BufTy).Contents (Elt F)) (deg : (⟨S16384x1, .f32⟩ : BufTy).Contents (Elt F))
    (b1 : (⟨S16, .f32⟩ : BufTy).Contents (Elt F)) (W2l : (⟨S16x16, .f32⟩ : BufTy).Contents (Elt F)) (b2 : (⟨S16, .f32⟩ : BufTy).Contents (Elt F)) (W2r W3l : (⟨S16x16, .f32⟩ : BufTy).Contents (Elt F)) (b3 : (⟨S16, .f32⟩ : BufTy).Contents (Elt F)) (W3r : (⟨S16x16, .f32⟩ : BufTy).Contents (Elt F))
    (Wo : (⟨S16x237, .f32⟩ : BufTy).Contents (Elt F)) (bo : (⟨S237, .f32⟩ : BufTy).Contents (Elt F)) : (⟨S16384x237, .f32⟩ : BufTy).Contents (Elt F) :=
  project (layer (relu16 (layer (relu16 (sage p q src dst deg b1)) W2l W2r src dst deg b2)) W3l W3r src dst deg b3) Wo bo

/-- The edge list's row `r` as a vector. -/
def srcRow (e : (⟨S2x524288, .i32⟩ : BufTy).Contents (Elt F)) : (⟨S524288, .i32⟩ : BufTy).Contents (Elt F) :=
  shapeCast _ (extractStridedSlice S1x524288 ![0, 0] e slices_S2x524288_S1x524288_0_0) shapeCasts_S1x524288_S524288
def dstRow (e : (⟨S2x524288, .i32⟩ : BufTy).Contents (Elt F)) : (⟨S524288, .i32⟩ : BufTy).Contents (Elt F) :=
  shapeCast _ (extractStridedSlice S1x524288 ![1, 0] e slices_S2x524288_S1x524288_1_0) shapeCasts_S1x524288_S524288

/-- The degree column: the number of edges into each node, at least one. -/
def degCol (dst : (⟨S524288, .i32⟩ : BufTy).Contents (Elt F)) : (⟨S16384x1, .f32⟩ : BufTy).Contents (Elt F) :=
  broadcastInDim S16384x1 ![0] bcast_S16384_S16384x1_0
    (maximumf
      (Host.scatterAdd scatter_S16384_S524288x1_S524288_n_0_0_1
        (broadcastInDim S16384 ![] bcast_S_S16384 (constant S_ .f32 0x00000000#32))
        (broadcastInDim S524288x1 ![0] bcast_S524288_S524288x1_0 dst)
        (broadcastInDim S524288 ![] bcast_S_S524288 (constant S_ .f32 0x3F800000#32)))
      (broadcastInDim S16384 ![] bcast_S_S16384 (constant S_ .f32 0x3F800000#32)))

set_option maxHeartbeats 4000000 in
/-- The reference run's result term is the chain after the first layer's products, applied to the reference's two
    products of the feature matrix with the two first-layer weight matrices. -/
theorem result_eq (m : (ℓ : Loc nD τ sig) → Buf (Elt F) ℓ) (c : Dev nD) :
    Cert.ReferenceIdeal.Value.res_main_v84 m c
      = network (Cert.ReferenceIdeal.Read.val_main_v4 (F := F) (m ((c.tc : Thread nD τ).loc main_arg0)) (m ((c.tc : Thread nD τ).loc main_arg2)))
          (Cert.ReferenceIdeal.Read.val_main_v27 (F := F) (m ((c.tc : Thread nD τ).loc main_arg0)) (m ((c.tc : Thread nD τ).loc main_arg4)))
          (srcRow (m ((c.tc : Thread nD τ).loc main_arg1))) (dstRow (m ((c.tc : Thread nD τ).loc main_arg1))) (degCol (dstRow (m ((c.tc : Thread nD τ).loc main_arg1))))
          (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v84; rfl

end Cert.Bridge.R

end
-- ==== Proof.Val.Chain.lean ====
/-
  The chain of operations after the first layer's two products is spelt twice, once with each program's shape and
  dimension records. The two programs' records are the same literals, so the two spellings are one function:
  stage by stage the equality is by unfolding the records, and the chain's is assembled from its stages'.
-/
import proofs.«151274_j27419071218491_2_alg».proof.Proof.Val.Tail
import proofs.«151274_j27419071218491_2_alg».proof.Proof.Val.RefSide

set_option maxRecDepth 16384

noncomputable section

namespace Cert.Bridge

open Idealize.ShloMosaic

variable {F : FTy → Type} [FloatOps F]

theorem zeros16_eq : (K.zeros16 : (⟨Cert.KernelIdeal.S16384x16, .f32⟩ : BufTy).Contents (Elt F)) = R.zeros16 := rfl
theorem lookupIdx_eq (s : (⟨Cert.KernelIdeal.S524288, .i32⟩ : BufTy).Contents (Elt F)) : K.lookupIdx s = R.lookupIdx s := rfl
theorem biasRows_eq (b : (⟨Cert.KernelIdeal.S16, .f32⟩ : BufTy).Contents (Elt F)) : K.biasRows b = R.biasRows b := rfl
theorem relu16_eq (h : (⟨Cert.KernelIdeal.S16384x16, .f32⟩ : BufTy).Contents (Elt F)) : K.relu16 h = R.relu16 h := rfl
theorem srcRow_eq (e : (⟨Cert.KernelIdeal.S2x524288, .i32⟩ : BufTy).Contents (Elt F)) : K.srcRow e = R.srcRow e := rfl
theorem dstRow_eq (e : (⟨Cert.KernelIdeal.S2x524288, .i32⟩ : BufTy).Contents (Elt F)) : K.dstRow e = R.dstRow e := rfl
theorem degCol_eq (d : (⟨Cert.KernelIdeal.S524288, .i32⟩ : BufTy).Contents (Elt F)) : K.degCol d = R.degCol d := rfl
theorem meanAgg_eq (h : (⟨Cert.KernelIdeal.S16384x16, .f32⟩ : BufTy).Contents (Elt F)) (s d : (⟨Cert.KernelIdeal.S524288, .i32⟩ : BufTy).Contents (Elt F)) (g : (⟨Cert.KernelIdeal.S16384x1, .f32⟩ : BufTy).Contents (Elt F)) : K.meanAgg h s d g = R.meanAgg h s d g := rfl
theorem project_eq (h : (⟨Cert.KernelIdeal.S16384x16, .f32⟩ : BufTy).Contents (Elt F)) (Wo : (⟨Cert.KernelIdeal.S16x237, .f32⟩ : BufTy).Contents (Elt F)) (bo : (⟨Cert.KernelIdeal.S237, .f32⟩ : BufTy).Contents (Elt F)) : K.project h Wo bo = R.project h Wo bo := rfl
theorem dot16_eq (h : (⟨Cert.KernelIdeal.S16384x16, .f32⟩ : BufTy).Contents (Elt F)) (W : (⟨Cert.KernelIdeal.S16x16, .f32⟩ : BufTy).Contents (Elt F)) :
    Host.dotGeneral Cert.KernelIdeal.dot_S16384x16_S16x16_S16384x16_1_0_0_1_n_n none h W = Host.dotGeneral Cert.ReferenceIdeal.dot_S16384x16_S16x16_S16384x16_1_0_0_1_n_n none h W := rfl

/-- One layer before its activation. -/
theorem sage_eq (p q : (⟨Cert.KernelIdeal.S16384x16, .f32⟩ : BufTy).Contents (Elt F)) (s d : (⟨Cert.KernelIdeal.S524288, .i32⟩ : BufTy).Contents (Elt F)) (g : (⟨Cert.KernelIdeal.S16384x1, .f32⟩ : BufTy).Contents (Elt F)) (b : (⟨Cert.KernelIdeal.S16, .f32⟩ : BufTy).Contents (Elt F)) : K.sage p q s d g b = R.sage p q s d g b := by
  show addf (addf (K.meanAgg p s d g) (K.biasRows b)) q = addf (addf (R.meanAgg p s d g) (R.biasRows b)) q
  rw [meanAgg_eq, biasRows_eq] <;> rfl

/-- A later layer before its activation. -/
theorem layer_eq (h : (⟨Cert.KernelIdeal.S16384x16, .f32⟩ : BufTy).Contents (Elt F)) (Wl Wr : (⟨Cert.KernelIdeal.S16x16, .f32⟩ : BufTy).Contents (Elt F)) (s d : (⟨Cert.KernelIdeal.S524288, .i32⟩ : BufTy).Contents (Elt F)) (g : (⟨Cert.KernelIdeal.S16384x1, .f32⟩ : BufTy).Contents (Elt F)) (b : (⟨Cert.KernelIdeal.S16, .f32⟩ : BufTy).Contents (Elt F)) :
    K.layer h Wl Wr s d g b = R.layer h Wl Wr s d g b := by
  show K.sage (Host.dotGeneral Cert.KernelIdeal.dot_S16384x16_S16x16_S16384x16_1_0_0_1_n_n none h Wl) (Host.dotGeneral Cert.KernelIdeal.dot_S16384x16_S16x16_S16384x16_1_0_0_1_n_n none h Wr) s d g b
    = R.sage (Host.dotGeneral Cert.ReferenceIdeal.dot_S16384x16_S16x16_S16384x16_1_0_0_1_n_n none h Wl) (Host.dotGeneral Cert.ReferenceIdeal.dot_S16384x16_S16x16_S16384x16_1_0_0_1_n_n none h Wr) s d g b
  rw [sage_eq, dot16_eq, dot16_eq] <;> rfl

/-- The whole chain after the first layer's products. -/
theorem network_eq (p q : (⟨Cert.KernelIdeal.S16384x16, .f32⟩ : BufTy).Contents (Elt F)) (s d : (⟨Cert.KernelIdeal.S524288, .i32⟩ : BufTy).Contents (Elt F)) (g : (⟨Cert.KernelIdeal.S16384x1, .f32⟩ : BufTy).Contents (Elt F))
    (b1 : (⟨Cert.KernelIdeal.S16, .f32⟩ : BufTy).Contents (Elt F)) (W2l : (⟨Cert.KernelIdeal.S16x16, .f32⟩ : BufTy).Contents (Elt F)) (b2 : (⟨Cert.KernelIdeal.S16, .f32⟩ : BufTy).Contents (Elt F)) (W2r W3l : (⟨Cert.KernelIdeal.S16x16, .f32⟩ : BufTy).Contents (Elt F)) (b3 : (⟨Cert.KernelIdeal.S16, .f32⟩ : BufTy).Contents (Elt F)) (W3r : (⟨Cert.KernelIdeal.S16x16, .f32⟩ : BufTy).Contents (Elt F))
    (Wo : (⟨Cert.KernelIdeal.S16x237, .f32⟩ : BufTy).Contents (Elt F)) (bo : (⟨Cert.KernelIdeal.S237, .f32⟩ : BufTy).Contents (Elt F)) :
    K.network p q s d g b1 W2l b2 W2r W3l b3 W3r Wo bo = R.network p q s d g b1 W2l b2 W2r W3l b3 W3r Wo bo := by
  show K.project (K.layer (K.relu16 (K.layer (K.relu16 (K.sage p q s d g b1)) W2l W2r s d g b2)) W3l W3r s d g b3) Wo bo
    = R.project (R.layer (R.relu16 (R.layer (R.relu16 (R.sage p q s d g b1)) W2l W2r s d g b2)) W3l W3r s d g b3) Wo bo
  rw [project_eq, layer_eq, relu16_eq, layer_eq, relu16_eq, sage_eq] <;> rfl

/-- The chain on the edge list's rows and the degree column computed from them. -/
theorem chain_eq (p q : (⟨Cert.KernelIdeal.S16384x16, .f32⟩ : BufTy).Contents (Elt F)) (e : (⟨Cert.KernelIdeal.S2x524288, .i32⟩ : BufTy).Contents (Elt F))
    (b1 : (⟨Cert.KernelIdeal.S16, .f32⟩ : BufTy).Contents (Elt F)) (W2l : (⟨Cert.KernelIdeal.S16x16, .f32⟩ : BufTy).Contents (Elt F)) (b2 : (⟨Cert.KernelIdeal.S16, .f32⟩ : BufTy).Contents (Elt F)) (W2r W3l : (⟨Cert.KernelIdeal.S16x16, .f32⟩ : BufTy).Contents (Elt F)) (b3 : (⟨Cert.KernelIdeal.S16, .f32⟩ : BufTy).Contents (Elt F)) (W3r : (⟨Cert.KernelIdeal.S16x16, .f32⟩ : BufTy).Contents (Elt F))
    (Wo : (⟨Cert.KernelIdeal.S16x237, .f32⟩ : BufTy).Contents (Elt F)) (bo : (⟨Cert.KernelIdeal.S237, .f32⟩ : BufTy).Contents (Elt F)) :
    K.network p q (K.srcRow e) (K.dstRow e) (K.degCol (K.dstRow e)) b1 W2l b2 W2r W3l b3 W3r Wo bo
      = R.network p q (R.srcRow e) (R.dstRow e) (R.degCol (R.dstRow e)) b1 W2l b2 W2r W3l b3 W3r Wo bo := by
  rw [network_eq, srcRow_eq, dstRow_eq, degCol_eq] <;> rfl

end Cert.Bridge

end
-- ==== Proof.Val.Halves.lean ====
/-
  The two column halves of the region's output are the reference's two first-layer products. The region's output
  is H = x · [W1l | W1r], the product of the feature matrix with the two first-layer weight matrices joined side by
  side: entry (i, q) of H is the sum over j of x (i, j) · [W1l | W1r] (j, q). A column q below 16 of the joined
  matrix is column q of W1l, and a column 16 + q is column q of W1r; so H[:, 0:16] is x · W1l and H[:, 16:32] is
  x · W1r, entry by entry the same sums the reference's two products are.
-/
import proofs.«151274_j27419071218491_2_alg».proof.Proof.Gen.KernelIdeal
import proofs.«151274_j27419071218491_2_alg».proof.Proof.Gen.ReferenceIdeal.Read

set_option maxRecDepth 16384

noncomputable section

namespace Cert.Bridge

open Idealize.ShloMosaic Idealize.ShloMosaic.ValueIdx
open scoped BigOperators

/-- The left half: columns 0 … 15 of `H = x · [Wl | Wr]` are the product `x · Wl`. -/
theorem left_half (X : (⟨Cert.KernelIdeal.S16384x16384, .f32⟩ : BufTy).Contents (Elt Ideal)) (Wl Wr : (⟨Cert.KernelIdeal.S16384x16, .f32⟩ : BufTy).Contents (Elt Ideal)) (H Wc : (⟨Cert.KernelIdeal.S16384x32, .f32⟩ : BufTy).Contents (Elt Ideal))
    (hWc : Wc = (concatenate Cert.KernelIdeal.S16384x32 1 [⟨Cert.KernelIdeal.S16384x16, Wl⟩, ⟨Cert.KernelIdeal.S16384x16, Wr⟩] Cert.KernelIdeal.Gen.concatenates_S16384x16_S16384x16_S16384x32_d1))
    (hH : ∀ (i : Fin 16384) (q : Fin 32), H (ix2 i q) = ∑ j : Fin 16384, X (ix2 i j) * Wc (ix2 j q)) :
    extractStridedSlice Cert.KernelIdeal.S16384x16 ![0, 0] H Cert.KernelIdeal.Gen.slices_S16384x32_S16384x16_0_0
      = Cert.ReferenceIdeal.Read.val_main_v4 (F := Ideal) X Wl := by
  funext i
  obtain ⟨p, q, rfl⟩ : ∃ (p : Fin 16384) (q : Fin 16), i = ix2 p q := ⟨i 0, i 1, eq_ix2 i⟩
  rw [Cert.ReferenceIdeal.Read.val_main_v4_apply,
    extractStridedSlice_apply ![0, 0] H Cert.KernelIdeal.Gen.slices_S16384x32_S16384x16_0_0 (ix2 p q) (ix2 p ⟨q.val, by have := q.isLt; omega⟩)
      (fun a => match a with
        | ⟨0, _⟩ => by show p.val = 0 + p.val; omega
        | ⟨1, _⟩ => by show q.val = 0 + q.val; omega),
    hH]
  refine Finset.sum_congr rfl fun j _ => ?_
  have eX : X (ix2 p j) = X (Cert.ReferenceIdeal.Read.lidx_main_v4 (ix2 p q) j) :=
    congrArg X (funext fun a => match a with | ⟨0, _⟩ => rfl | ⟨1, _⟩ => rfl)
  have eW : Wc (ix2 j ⟨q.val, by have := q.isLt; omega⟩) = Wl (Cert.ReferenceIdeal.Read.ridx_main_v4 (ix2 p q) j) := by
    rw [hWc]
    exact concatenate_pair_apply_left 1 Wl Wr Cert.KernelIdeal.Gen.concatenates_S16384x16_S16384x16_S16384x32_d1 _ rfl _
      (fun b => match b with | ⟨0, _⟩ => rfl | ⟨1, _⟩ => rfl)
  rw [eX, eW]

/-- The right half: columns 16 … 31 of `H = x · [Wl | Wr]` are the product `x · Wr`. -/
theorem right_half (X : (⟨Cert.KernelIdeal.S16384x16384, .f32⟩ : BufTy).Contents (Elt Ideal)) (Wl Wr : (⟨Cert.KernelIdeal.S16384x16, .f32⟩ : BufTy).Contents (Elt Ideal)) (H Wc : (⟨Cert.KernelIdeal.S16384x32, .f32⟩ : BufTy).Contents (Elt Ideal))
    (hWc : Wc = (concatenate Cert.KernelIdeal.S16384x32 1 [⟨Cert.KernelIdeal.S16384x16, Wl⟩, ⟨Cert.KernelIdeal.S16384x16, Wr⟩] Cert.KernelIdeal.Gen.concatenates_S16384x16_S16384x16_S16384x32_d1))
    (hH : ∀ (i : Fin 16384) (q : Fin 32), H (ix2 i q) = ∑ j : Fin 16384, X (ix2 i j) * Wc (ix2 j q)) :
    extractStridedSlice Cert.KernelIdeal.S16384x16 ![0, 16] H Cert.KernelIdeal.Gen.slices_S16384x32_S16384x16_0_16
      = Cert.ReferenceIdeal.Read.val_main_v27 (F := Ideal) X Wr := by
  funext i
  obtain ⟨p, q, rfl⟩ : ∃ (p : Fin 16384) (q : Fin 16), i = ix2 p q := ⟨i 0, i 1, eq_ix2 i⟩
  rw [Cert.ReferenceIdeal.Read.val_main_v27_apply,
    extractStridedSlice_apply ![0, 16] H Cert.KernelIdeal.Gen.slices_S16384x32_S16384x16_0_16 (ix2 p q) (ix2 p ⟨16 + q.val, by have := q.isLt; omega⟩)
      (fun a => match a with
        | ⟨0, _⟩ => by show p.val = 0 + p.val; omega
        | ⟨1, _⟩ => by show 16 + q.val = 16 + q.val; rfl),
    hH]
  refine Finset.sum_congr rfl fun j _ => ?_
  have eX : X (ix2 p j) = X (Cert.ReferenceIdeal.Read.lidx_main_v27 (ix2 p q) j) :=
    congrArg X (funext fun a => match a with | ⟨0, _⟩ => rfl | ⟨1, _⟩ => rfl)
  have eW : Wc (ix2 j ⟨16 + q.val, by have := q.isLt; omega⟩) = Wr (Cert.ReferenceIdeal.Read.ridx_main_v27 (ix2 p q) j) := by
    rw [hWc]
    exact concatenate_pair_apply_right 1 Wl Wr Cert.KernelIdeal.Gen.concatenates_S16384x16_S16384x16_S16384x32_d1 _ rfl rfl _
      (fun b hb => match b, hb with | ⟨0, _⟩, _ => rfl | ⟨1, _⟩, hb => absurd rfl hb)
      (by show q.val + 16 = 16 + q.val; omega)
  rw [eX, eW]

end Cert.Bridge

end
-- ==== Proof.Val.Bridge.lean ====
/-
  The kernel's result and the reference's are equal at the ideal instance. Both programs run the SAME chain of
  operations after the first layer's two products p = x · W1l and q = x · W1r — the mean aggregation over the
  edge list, the bias, the activation, two more layers and the output projection — on the same edge rows and the
  same degree column; they differ only in how p and q come about. The reference computes them as two products;
  the kernel computes ONE product H = x · [W1l | W1r] with the two weight matrices joined side by side and takes
  its column halves, which are p and q entry by entry. So the two results are the chain applied to equal inputs.
-/
import proofs.«151274_j27419071218491_2_alg».proof.Proof.Val.KResult
import proofs.«151274_j27419071218491_2_alg».proof.Proof.Val.Chain
import proofs.«151274_j27419071218491_2_alg».proof.Proof.Val.Halves

set_option maxRecDepth 16384

noncomputable section

namespace Cert.Bridge

open Idealize.ShloMosaic Idealize.ShloMosaic.TcCoe Idealize.SL.Sem Idealize.ShloMosaic.ValueIdx
open Idealize.ShloMosaic.Pipeline (Dat)
open scoped BigOperators

set_option maxHeartbeats 4000000 in
/-- THE EQUALITY. On a core `c`, for any proof data of the region whose output array `H` ends as the product of the
    feature matrix `X` with the joined weight matrix `Wc` as the region finds them (`hH`; the three arrays are named
    at their literal array types, each with the equation saying which buffer contents it is), and from memories
    that agree on the thirteen arguments, the kernel's result buffer after the whole program is the reference's
    result term. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (dats : (p : Fin 1) → (c : Dev Cert.KernelIdeal.nD) → Dat Cert.KernelIdeal.τ (Elt Ideal) Unit ℕ (UR Cert.KernelIdeal.sig Cert.KernelIdeal.nD Cert.KernelIdeal.τ) ℕ (Cert.KernelIdeal.cfgs p) c)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (X : (⟨Cert.KernelIdeal.S16384x16384, .f32⟩ : BufTy).Contents (Elt Ideal)) (hX : X = Cert.KernelIdeal.Fr.V m c Cert.KernelIdeal.main_arg0)
    (H : (⟨Cert.KernelIdeal.S16384x32, .f32⟩ : BufTy).Contents (Elt Ideal)) (hHo : H = (dats 0 c).arrAt 2 Cert.KernelIdeal.cfg0.N)
    (Wc : (⟨Cert.KernelIdeal.S16384x32, .f32⟩ : BufTy).Contents (Elt Ideal)) (hWc : Wc = Cert.KernelIdeal.Fr.V m c Cert.KernelIdeal.main_v11)
    (hH : ∀ (i : Fin 16384) (q : Fin 32), H (ix2 i q) = ∑ j : Fin 16384, X (ix2 i j) * Wc (ix2 j q)) :
    Pipeline.afterTail₀ Cert.KernelIdeal.cfgs dats 0 (Cert.KernelIdeal.Fr.V0 m) Cert.KernelIdeal.Fr.tailOps c Cert.KernelIdeal.main_v72
      = Cert.ReferenceIdeal.Value.res_main_v84 (F := Ideal) m' c := by
  have hX' : X = (m ((c.tc : Thread Cert.KernelIdeal.nD Cert.KernelIdeal.τ).loc Cert.KernelIdeal.main_arg0)) := hX.trans (K.V_arg m c Cert.KernelIdeal.main_arg0 (by simp))
  subst hX' hHo hWc
  obtain ⟨h0, h1, h2, h3, h4, h5, h6, h7, h8, h9, h10, h11, h12⟩ := hagree
  refine (K.result_eq m dats c).trans ?_
  refine Eq.trans ?_ (R.result_eq m' c).symm
  rw [h0, h1, h2, h3, h4, h5, h6, h7, h8, h9, h10, h11, h12,
    left_half (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) ((dats 0 c).arrAt 2 Cert.KernelIdeal.cfg0.N) (Cert.KernelIdeal.Fr.V m c Cert.KernelIdeal.main_v11) (K.V_joined m c) hH,
    right_half (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) ((dats 0 c).arrAt 2 Cert.KernelIdeal.cfg0.N) (Cert.KernelIdeal.Fr.V m c Cert.KernelIdeal.main_v11) (K.V_joined m c) hH]
  exact chain_eq _ _ _ _ _ _ _ _ _ _ _ _

end Cert.Bridge

end
-- ==== Proof.Assemble.lean ====
/-
  The five claims. The two frames are the region's frame runs; the reference's frame is its run with the result
  dropped; the idealization rewrote nothing. The algebraic claim: at the ideal instance the kernel's run leaves its
  result buffer at the operations after the region applied to the region's output array, the region's output array
  is the product of the feature matrix with the joined first-layer weight matrix, and that makes the kernel's
  result the reference's result term on memories that agree on the arguments; the common value of the two results
  is taken to be the reference's term.
-/
import proofs.«151274_j27419071218491_2_alg».proof.Defs
import proofs.«151274_j27419071218491_2_alg».proof.Proof.K.Frame
import proofs.«151274_j27419071218491_2_alg».proof.Proof.KI.Region3
import proofs.«151274_j27419071218491_2_alg».proof.Proof.Val.Bridge
import proofs.«151274_j27419071218491_2_alg».proof.Proof.Gen.Pre_finite_inputs

set_option maxRecDepth 16384

noncomputable section

namespace Cert.Bridge

open Cert.KernelIdeal Cert.KernelIdeal.Gen Cert.KernelIdeal.Fr
open Idealize.ShloMosaic Idealize.ShloMosaic.TcCoe Idealize.SL.Sem
open Idealize.ShloMosaic.Pipeline (Dat)

/-- What the kernel's frame run leaves, read at the result buffer and at the argument arrays: the result buffer
    holds the operations after the region applied to the region's arrays, and every argument array is as launched
    (the feature matrix is one of the region's arrays, an input; no other argument is written by any operation). -/
theorem kernel_post {F : FTy → Type} [FloatOps F] (m : (ℓ : Loc nD τ sig) → Buf (Elt F) ℓ)
    (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) tailOps) r) (c : Dev nD) :
    r.2.mem ((c.tc : Thread nD τ).loc main_v72) = Pipeline.afterTail₀ cfgs dats 0 (V0 m) tailOps c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  have rest : ∀ b ∈ ([main_arg1, main_arg2, main_arg3, main_arg4, main_arg5, main_arg6, main_arg7, main_arg8, main_arg9, main_arg10, main_arg11, main_arg12] : List (Ref sig .tc)),
      _ = m ((c.tc : Thread nD τ).loc b) := fun b hb =>
    ((h c).2 b (Pipeline.mem_restRefs_of b (by
        simp only [List.mem_cons, List.mem_nil_iff, or_false] at hb
        rcases hb with rfl | rfl | rfl | rfl | rfl | rfl | rfl | rfl | rfl | rfl | rfl | rfl <;> decide) (by
        simp only [List.mem_cons, List.mem_nil_iff, or_false] at hb
        rcases hb with rfl | rfl | rfl | rfl | rfl | rfl | rfl | rfl | rfl | rfl | rfl | rfl <;> decide))).trans
      (W_of_arg m dats c b (List.mem_cons_of_mem _ hb) (by
        simp only [List.mem_cons, List.mem_nil_iff, or_false] at hb
        rcases hb with rfl | rfl | rfl | rfl | rfl | rfl | rfl | rfl | rfl | rfl | rfl | rfl <;> decide))
  refine ⟨(h c).2 main_v72 (Pipeline.mem_restRefs_of main_v72 (by decide) (by decide)),
    ((h c).1 0).trans (((dats 0 c).arrAt_in 0 rfl _).trans ((hA c 0).trans (V_of_unwritten m c main_arg0 (pre_unwritten main_arg0 (by simp))))), ?_⟩
  exact ⟨rest _ (by simp), rest _ (by simp), rest _ (by simp), rest _ (by simp), rest _ (by simp), rest _ (by simp),
    rest _ (by simp), rest _ (by simp), rest _ (by simp), rest _ (by simp), rest _ (by simp), rest _ (by simp)⟩

end Cert.Bridge

namespace Cert.Proof.Claims

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- At the ideal instance, from memories that agree on the arguments, both programs end with the reference's result
    term in their result buffers and with their arguments unchanged. -/
theorem algebraic : Cert.algebraic_KernelIdeal_ReferenceIdeal := by
  intro m ρ m' ρ' _ hagree
  refine ⟨fun c => Cert.ReferenceIdeal.Value.res_main_v84 (F := Ideal) m' c, ?_, Cert.ReferenceIdeal.Value.run (F := Ideal) m' ρ'⟩
  refine (θ_run Cert.KernelIdeal.defs _ _).mono (fun r h c => ?_) (Cert.KernelIdeal.Fr.run_main (F := Ideal) m ρ)
  obtain ⟨hres, hargs⟩ := Cert.Bridge.kernel_post m (Cert.KernelIdeal.Fr.dats m) (Cert.KernelIdeal.Fr.A_eq m) r h c
  exact ⟨hres.trans (Cert.Bridge.result_eq m m' c (Cert.KernelIdeal.Fr.dats m) (hagree c)
    (Cert.KernelIdeal.Fr.Xarr m c) rfl (Cert.KernelIdeal.Fr.Harr m c) rfl (Cert.KernelIdeal.Fr.Warr m c) rfl
    (Cert.KernelIdeal.Fr.region_value m c)), hargs⟩

end Cert.Proof.Claims

end
-- ==== Proof.lean ====
/- A three-layer mean-aggregation graph network on 16384 nodes. The kernel computes the first layer's two products
   x · W1l and x · W1r as ONE blocked product x · [W1l | W1r], accumulated over eight blocks of 2048 columns of x, and
   takes its two column halves; the reference computes the two products separately. Everything after the products —
   the segment sums over the edge list divided by the node degrees, the activations, two more layers and the output
   projection — is the same chain of operations in both programs, so at the ideal instance, where a sum may be
   regrouped freely, the two results are equal. The frames, the region's value and the bridge are in Proof/. -/
import proofs.«151274_j27419071218491_2_alg».proof.Defs
import proofs.«151274_j27419071218491_2_alg».proof.Proof.Gen.Kernel
import proofs.«151274_j27419071218491_2_alg».proof.Proof.Gen.Kernel.Skeleton
import proofs.«151274_j27419071218491_2_alg».proof.Proof.Gen.Kernel.Launch
import proofs.«151274_j27419071218491_2_alg».proof.Proof.Gen.Kernel.Points
import proofs.«151274_j27419071218491_2_alg».proof.Proof.Gen.KernelIdeal
import proofs.«151274_j27419071218491_2_alg».proof.Proof.Gen.KernelIdeal.Skeleton
import proofs.«151274_j27419071218491_2_alg».proof.Proof.Gen.KernelIdeal.Launch
import proofs.«151274_j27419071218491_2_alg».proof.Proof.Gen.KernelIdeal.Points
import proofs.«151274_j27419071218491_2_alg».proof.Proof.Gen.ReferenceIdeal
import proofs.«151274_j27419071218491_2_alg».proof.Proof.Gen.Pre_finite_inputs
import proofs.«151274_j27419071218491_2_alg».proof.Proof.Gen.ReferenceIdeal.Read
import proofs.«151274_j27419071218491_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
